-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v143) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S256x256 : Shape := ⟨2, ![256, 256]⟩
abbrev S256 : Shape := ⟨1, ![256]⟩
abbrev S800000 : Shape := ⟨1, ![800000]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part3 {F : FTy → Type} [FloatOps F] (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  main_v53

def fn_part2 {F : FTy → Type} [FloatOps F] (main_arg7 : FVec F S256 .f32) (main_arg8 : FVec F S256 .f32) (main_arg9 : FVec F S256 .f32) (main_arg10 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_v48 main_v49 main_v50

def fn_part1 {F : FTy → Type} [FloatOps F] (main_arg4 : FVec F S256x256 .f32) (main_arg5 : FVec F S256 .f32) (main_arg6 : FVec F S256 .f32) (main_arg7 : FVec F S256 .f32) (main_arg8 : FVec F S256 .f32) (main_arg9 : FVec F S256 .f32) (main_arg10 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S50000x256 .f32) (main_arg1 : FVec F S50000x256 .f32) (main_arg2 : FVec F S256x256 .f32) (main_arg3 : FVec F S256x256 .f32) (main_arg4 : FVec F S256x256 .f32) (main_arg5 : FVec F S256 .f32) (main_arg6 : FVec F S256 .f32) (main_arg7 : FVec F S256 .f32) (main_arg8 : FVec F S256 .f32) (main_arg9 : FVec F S256 .f32) (main_arg10 : FVec F S256 .f32) (main_arg11 : IVec S800000 32) (main_arg12 : IVec S800000 32) (main_arg13 : IVec S800000 32) (main_arg14 : IVec S800000 32) (main_arg15 : IVec S800000 32) (main_arg16 : IVec S800000 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S50000x256 .f32 := Host.absf main_arg1
  let main_cst_0 : FVec F S_ .f32 := constant S_ .f32 0x7F800000#32
  let main_v5 : FVec F S50000x256 .f32 := broadcastInDim S50000x256 ![] bcast_S_S50000x256 main_cst_0
  let main_v6 : IVec S50000x256 1 := cmpf .olt main_v4 main_v5
  let main_c_1 : IVec S_ 1 := constantI S_ 1 1#1
  let main_v7 : IVec S_ 1 := (fun x v => Host.reduce IntOp.andi x v reducesTo_S50000x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_arg9 main_arg10 main_v13 main_v16
-- ==== Kernel.lean ====
abbrev S50000x256 : Shape := ⟨2, ![50000, 256]⟩
abbrev S256x256 : Shape := ⟨2, ![256, 256]⟩
abbrev S256 : Shape := ⟨1, ![256]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x256 : Shape := ⟨2, ![800000, 256]⟩
abbrev S1x256 : Shape := ⟨2, ![1, 256]⟩
abbrev S2x50000x256 : Shape := ⟨3, ![2, 50000, 256]⟩
abbrev S2000x256 : Shape := ⟨2, ![2000, 256]⟩
abbrev S2000x1 : Shape := ⟨2, ![2000, 1]⟩
abbrev S2x2000x256 : Shape := ⟨3, ![2, 2000, 256]⟩
abbrev S2000 : Shape := ⟨1, ![2000]⟩
abbrev S1x2000x256 : Shape := ⟨3, ![1, 2000, 256]⟩

abbrev nBuf : Space → Nat
  | .hbm => 138
  | .vmem => 23
  | .smem => 0
  | _ => 0

abbrev hbmTy0_0 (i : Nat) : BufTy := match i % 128 with
  | 0 => ⟨S50000x256, .f32⟩
  | 1 => ⟨S50000x256, .f32⟩
  | 2 => ⟨S256x256, .f32⟩
  | 3 => ⟨S256x256, .f32⟩
  | 4 => ⟨S256x256, .f32⟩
  | 5 => ⟨S256, .f32⟩
  | 6 => ⟨S256, .f32⟩
  | 7 => ⟨S256, .f32⟩
  | 8 => ⟨S256, .f32⟩
  | 9 => ⟨S256, .f32⟩
  | 10 => ⟨S256, .f32⟩
  | 11 => ⟨S800000, .i32⟩
  | 12 => ⟨S800000, .i32⟩
  | 13 => ⟨S800000, .i32⟩
  | 14 => ⟨S800000, .i32⟩
  | 15 => ⟨S800000, .i32⟩
  | 16 => ⟨S800000, .i32⟩
  | 17 => ⟨S_, .f32⟩
  | 18 => ⟨S800000, .f32⟩
  | 19 => ⟨S_, .f32⟩
  | 20 => ⟨S50000, .f32⟩
  | 21 => ⟨S800000x1, .i32⟩
  | 22 => ⟨S50000, .f32⟩
  | 23 => ⟨S_, .f32⟩
  | 24 => ⟨S_, .f32⟩
  | 25 => ⟨S50000, .f32⟩
  | 26 => ⟨S50000, .f32⟩
  | 27 => ⟨S_, .f32⟩
  | 28 => ⟨S50000, .f32⟩
  | 29 => ⟨S800000x1, .i32⟩
  | 30 => ⟨S50000, .f32⟩
  | 31 => ⟨S_, .f32⟩
  | 32 => ⟨S_, .f32⟩
  | 33 => ⟨S50000, .f32⟩
  | 34 => ⟨S50000, .f32⟩
  | 35 => ⟨S50000, .f32⟩
  | 36 => ⟨S50000x1, .f32⟩
  | 37 => ⟨S50000x256, .f32⟩
  | 38 => ⟨S50000x256, .f32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S800000x256, .f32⟩
  | 48 => ⟨S_, .f32⟩
  | 49 => ⟨S50000x256, .f32⟩
  | 50 => ⟨S800000x1, .i32⟩
  | 51 => ⟨S50000x256, .f32⟩
  | 52 => ⟨S50000, .f32⟩
  | 53 => ⟨S50000x1, .f32⟩
  | 54 => ⟨S_, .f32⟩
  | 55 => ⟨S800000, .f32⟩
  | 56 => ⟨S_, .f32⟩
  | 57 => ⟨S50000, .f32⟩
  | 58 => ⟨S800000x1, .i32⟩
  | 59 => ⟨S50000, .f32⟩
  | 60 => ⟨S_, .f32⟩
  | 61 => ⟨S_, .f32⟩
  | 62 => ⟨S50000, .f32⟩
  | 63 => ⟨S50000, .f32⟩
  | 64 => ⟨S_, .f32⟩
  | 65 => ⟨S50000, .f32⟩
  | 66 => ⟨S800000x1, .i32⟩
  | 67 => ⟨S50000, .f32⟩
  | 68 => ⟨S_, .f32⟩
  | 69 => ⟨S_, .f32⟩
  | 70 => ⟨S50000, .f32⟩
  | 71 => ⟨S50000, .f32⟩
  | 72 => ⟨S50000, .f32⟩
  | 73 => ⟨S50000x1, .f32⟩
  | 74 => ⟨S50000x256, .f32⟩
  | 75 => ⟨S50000x256, .f32⟩
  | 76 => ⟨S_, .i32⟩
  | 77 => ⟨S800000, .i32⟩
  | 78 => ⟨S800000, .i1⟩
  | 79 => ⟨S_, .i32⟩
  | 80 => ⟨S800000, .i32⟩
  | 81 => ⟨S800000, .i32⟩
  | 82 => ⟨S800000, .i32⟩
  | 83 => ⟨S800000x1, .i32⟩
  | 84 => ⟨S800000x256, .f32⟩
  | 85 => ⟨S_, .f32⟩
  | 86 => ⟨S50000x256, .f32⟩
  | 87 => ⟨S800000x1, .i32⟩
  | 88 => ⟨S50000x256, .f32⟩
  | 89 => ⟨S50000, .f32⟩
  | 90 => ⟨S50000x1, .f32⟩
  | 91 => ⟨S_, .f32⟩
  | 92 => ⟨S800000, .f32⟩
  | 93 => ⟨S_, .f32⟩
  | 94 => ⟨S50000, .f32⟩
  | 95 => ⟨S800000x1, .i32⟩
  | 96 => ⟨S50000, .f32⟩
  | 97 => ⟨S_, .f32⟩
  | 98 => ⟨S_, .f32⟩
  | 99 => ⟨S50000, .f32⟩
  | 100 => ⟨S50000, .f32⟩
  | 101 => ⟨S_, .f32⟩
  | 102 => ⟨S50000, .f32⟩
  | 103 => ⟨S800000x1, .i32⟩
  | 104 => ⟨S50000, .f32⟩
  | 105 => ⟨S_, .f32⟩
  | 106 => ⟨S_, .f32⟩
  | 107 => ⟨S50000, .f32⟩
  | 108 => ⟨S50000, .f32⟩
  | 109 => ⟨S50000, .f32⟩
  | 110 => ⟨S50000x1, .f32⟩
  | 111 => ⟨S50000x256, .f32⟩
  | 112 => ⟨S50000x256, .f32⟩
  | 113 => ⟨S_, .i32⟩
  | 114 => ⟨S800000, .i32⟩
  | 115 => ⟨S800000, .i1⟩
  | 116 => ⟨S_, .i32⟩
  | 117 => ⟨S800000, .i32⟩
  | 118 => ⟨S800000, .i32⟩
  | 119 => ⟨S800000, .i32⟩
  | 120 => ⟨S800000x1, .i32⟩
  | 121 => ⟨S800000x256, .f32⟩
  | 122 => ⟨S_, .f32⟩
  | 123 => ⟨S50000x256, .f32⟩
  | 124 => ⟨S800000x1, .i32⟩
  | 125 => ⟨S50000x256, .f32⟩
  | 126 => ⟨S50000, .f32⟩
  | 127 => ⟨S50000x1, .f32⟩
  | _ => ⟨S50000x256, .f32⟩

abbrev hbmTy0_1 (i : Nat) : BufTy := match i % 128 with
  | 0 => ⟨S256x256, .bf16⟩
  | 1 => ⟨S256x256, .bf16⟩
  | 2 => ⟨S256x256, .bf16⟩
  | 3 => ⟨S1x256, .f32⟩
  | 4 => ⟨S1x256, .f32⟩
  | 5 => ⟨S1x256, .f32⟩
  | 6 => ⟨S1x256, .f32⟩
  | 7 => ⟨S1x256, .f32⟩
  | 8 => ⟨S1x256, .f32⟩
  | 9 => ⟨S2x50000x256, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S256x256, .bf16⟩
  | .local _ .vmem, ⟨7, _⟩ => ⟨S256x256, .bf16⟩
  | .local _ .vmem, ⟨8, _⟩ => ⟨S256x256, .bf16⟩
  | .local _ .vmem, ⟨9, _⟩ => ⟨S2000x1, .f32⟩
  | .local _ .vmem, ⟨10, _⟩ => ⟨S2000x1, .f32⟩
  | .local _ .vmem, ⟨11, _⟩ => ⟨S2000x1, .f32⟩
  | .local _ .vmem, ⟨12, _⟩ => ⟨S2000x1, .f32⟩
  | .local _ .vmem, ⟨13, _⟩ => ⟨S2000x1, .f32⟩
  | .local _ .vmem, ⟨14, _⟩ => ⟨S2000x1, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S1x256, .f32⟩
  | .local _ .vmem, ⟨20, _⟩ => ⟨S1x256, .f32⟩
  | .local _ .vmem, ⟨21, _⟩ => ⟨S2x2000x256, .f32⟩
  | .local _ .vmem, ⟨22, _⟩ => ⟨S2x2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_cst_0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst_1 : Ref sig .tc := ⟨.hbm, 23, rfl⟩
abbrev main_call0_v0 : Ref sig .tc := ⟨.hbm, 24, rfl⟩
abbrev main_call0_v1 : Ref sig .tc := ⟨.hbm, 25, rfl⟩
abbrev main_v4 : Ref sig .tc := ⟨.hbm, 26, rfl⟩
abbrev main_cst_2 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_cst_3 : Ref sig .tc := ⟨.hbm, 31, rfl⟩
abbrev main_call1_v0 : Ref sig .tc := ⟨.hbm, 32, rfl⟩
abbrev main_call1_v1 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_c : Ref sig .tc := ⟨.hbm, 39, rfl⟩
abbrev main_v13 : Ref sig .tc := ⟨.hbm, 40, rfl⟩
abbrev main_v14 : Ref sig .tc := ⟨.hbm, 41, rfl⟩
abbrev main_c_4 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_cst_5 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_cst_6 : Ref sig .tc := ⟨.hbm, 54, rfl⟩
abbrev main_v25 : Ref sig .tc := ⟨.hbm, 55, rfl⟩
abbrev main_cst_7 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_cst_8 : Ref sig .tc := ⟨.hbm, 60, rfl⟩
abbrev main_call2_v0 : Ref sig .tc := ⟨.hbm, 61, rfl⟩
abbrev main_call2_v1 : Ref sig .tc := ⟨.hbm, 62, rfl⟩
abbrev main_v29 : Ref sig .tc := ⟨.hbm, 63, rfl⟩
abbrev main_cst_9 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_cst_10 : Ref sig .tc := ⟨.hbm, 68, rfl⟩
abbrev main_call3_v0 : Ref sig .tc := ⟨.hbm, 69, rfl⟩
abbrev main_call3_v1 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_c_11 : Ref sig .tc := ⟨.hbm, 76, rfl⟩
abbrev main_v38 : Ref sig .tc := ⟨.hbm, 77, rfl⟩
abbrev main_v39 : Ref sig .tc := ⟨.hbm, 78, rfl⟩
abbrev main_c_12 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_cst_13 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_cst_14 : Ref sig .tc := ⟨.hbm, 91, rfl⟩
abbrev main_v50 : Ref sig .tc := ⟨.hbm, 92, rfl⟩
abbrev main_cst_15 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_cst_16 : Ref sig .tc := ⟨.hbm, 97, rfl⟩
abbrev main_call4_v0 : Ref sig .tc := ⟨.hbm, 98, rfl⟩
abbrev main_call4_v1 : Ref sig .tc := ⟨.hbm, 99, rfl⟩
abbrev main_v54 : Ref sig .tc := ⟨.hbm, 100, rfl⟩
abbrev main_cst_17 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_cst_18 : Ref sig .tc := ⟨.hbm, 105, rfl⟩
abbrev main_call5_v0 : Ref sig .tc := ⟨.hbm, 106, rfl⟩
abbrev main_call5_v1 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_c_19 : Ref sig .tc := ⟨.hbm, 113, rfl⟩
abbrev main_v63 : Ref sig .tc := ⟨.hbm, 114, rfl⟩
abbrev main_v64 : Ref sig .tc := ⟨.hbm, 115, rfl⟩
abbrev main_c_20 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_cst_21 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg15_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem15_1 : DmaSem sig := 22

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2000x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2000x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S2x2000x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S_S50000x256 : S_.BroadcastsInDim S50000x256 (![] : Fin 0 → Fin S50000x256.rank)
  bitsLt_bf16_f32 : FTy.bits .bf16 < FTy.bits .f32
  shapeCasts_S256_S1x256 : S256.ShapeCasts S1x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  reduces_S2000x256_S2000 : S2000x256.Reduces [1] S2000
  shapeCasts_S2000_S2000x1 : S2000.ShapeCasts S2000x1
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2x2000x256_S1x2000x256_0_0_0 : ∀ a, (![0, 0, 0] : Fin 3 → Nat) a + S1x2000x256.size a ≤ S2x2000x256.size a
  h_S1x2000x256 : 0 < S1x2000x256.numel
  shapeCasts_S1x2000x256_S2000x256 : S1x2000x256.ShapeCasts S2000x256
  shapeCasts_S2000x256_S1x2000x256 : S2000x256.ShapeCasts S1x2000x256
  inb_S2x2000x256_S1x2000x256_1_0_0 : ∀ a, (![1, 0, 0] : Fin 3 → Nat) a + S1x2000x256.size a ≤ S2x2000x256.size a
  scatter_S50000_S800000x1_S800000_n_0_0_1_wf : ScatterDims.WF S50000 S800000x1 S800000 [] [0] [0] 1
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S50000x256.size a
  hwx0_1 : ∀ i : grid0.Coords, EltTy.bits .f32 = 32 ∨ (Rect.block (s := S50000x256) S2000x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x1.size a ≤ S50000x1.size a
  hwx0_6 : ∀ i : grid0.Coords, EltTy.bits .f32 = 32 ∨ (Rect.block (s := S50000x1) S2000x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x1.size a ≤ S50000x1.size a
  hwx0_7 : ∀ i : grid0.Coords, EltTy.bits .f32 = 32 ∨ (Rect.block (s := S50000x1) S2000x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x1.size a ≤ S50000x1.size a
  hwx0_8 : ∀ i : grid0.Coords, EltTy.bits .f32 = 32 ∨ (Rect.block (s := S50000x1) S2000x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x256.size a
  hwx0_10 : ∀ i : grid0.Coords, EltTy.bits .f32 = 32 ∨ (Rect.block (s := S1x256) S1x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x256.size a ≤ S1x256.size a
  hwx0_11 : ∀ i : grid0.Coords, EltTy.bits .f32 = 32 ∨ (Rect.block (s := S1x256) S1x256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x256.size a ≤ S1x256.size a
  hwx0_12 : ∀ i : grid0.Coords, EltTy.bits .f32 = 32 ∨ (Rect.block (s := S1x256) S1x256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x256.size a ≤ S1x256.size a
  hwx0_13 : ∀ i : grid0.Coords, EltTy.bits .f32 = 32 ∨ (Rect.block (s := S1x256) S1x256.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x256.size a ≤ S1x256.size a
  hwx0_14 : ∀ i : grid0.Coords, EltTy.bits .f32 = 32 ∨ (Rect.block (s := S1x256) S1x256.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S2x2000x256.size a ≤ S2x50000x256.size a
  hwx0_15 : ∀ i : grid0.Coords, EltTy.bits .f32 = 32 ∨ (Rect.block (s := S2x50000x256) S2x2000x256.size (cc0_transform_15 i) (hinb0_15 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v22) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v47) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v72) S2000x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v75) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v76) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v77) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S2000x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v49) S2000x1.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v74) S2000x1.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v78) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v79) S1x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v80) S1x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v81) S1x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v82) S1x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v83) S1x256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v84) S2x2000x256.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S50000x256 : Shape := ⟨2, ![50000, 256]⟩
abbrev S256x256 : Shape := ⟨2, ![256, 256]⟩
abbrev S256 : Shape := ⟨1, ![256]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x256 : Shape := ⟨2, ![800000, 256]⟩
abbrev S1x256 : Shape := ⟨2, ![1, 256]⟩
abbrev S1x50000x256 : Shape := ⟨3, ![1, 50000, 256]⟩
abbrev S2x50000x256 : Shape := ⟨3, ![2, 50000, 256]⟩

abbrev nBuf : Space → Nat
  | .hbm => 211
  | .vmem => 0
  | .smem => 0
  | _ => 0

abbrev hbmTy0_0 (i : Nat) : BufTy := match i % 128 with
  | 0 => ⟨S50000x256, .f32⟩
  | 1 => ⟨S50000x256, .f32⟩
  | 2 => ⟨S256x256, .f32⟩
  | 3 => ⟨S256x256, .f32⟩
  | 4 => ⟨S256x256, .f32⟩
  | 5 => ⟨S256, .f32⟩
  | 6 => ⟨S256, .f32⟩
  | 7 => ⟨S256, .f32⟩
  | 8 => ⟨S256, .f32⟩
  | 9 => ⟨S256, .f32⟩
  | 10 => ⟨S256, .f32⟩
  | 11 => ⟨S800000, .i32⟩
  | 12 => ⟨S800000, .i32⟩
  | 13 => ⟨S800000, .i32⟩
  | 14 => ⟨S800000, .i32⟩
  | 15 => ⟨S800000, .i32⟩
  | 16 => ⟨S800000, .i32⟩
  | 17 => ⟨S_, .f32⟩
  | 18 => ⟨S800000, .f32⟩
  | 19 => ⟨S_, .f32⟩
  | 20 => ⟨S50000, .f32⟩
  | 21 => ⟨S800000x1, .i32⟩
  | 22 => ⟨S50000, .f32⟩
  | 23 => ⟨S_, .f32⟩
  | 24 => ⟨S_, .f32⟩
  | 25 => ⟨S50000, .f32⟩
  | 26 => ⟨S50000, .f32⟩
  | 27 => ⟨S_, .f32⟩
  | 28 => ⟨S50000, .f32⟩
  | 29 => ⟨S800000x1, .i32⟩
  | 30 => ⟨S50000, .f32⟩
  | 31 => ⟨S_, .f32⟩
  | 32 => ⟨S_, .f32⟩
  | 33 => ⟨S50000, .f32⟩
  | 34 => ⟨S50000, .f32⟩
  | 35 => ⟨S50000, .f32⟩
  | 36 => ⟨S50000x1, .f32⟩
  | 37 => ⟨S50000x256, .f32⟩
  | 38 => ⟨S50000x256, .f32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S800000x256, .f32⟩
  | 48 => ⟨S_, .f32⟩
  | 49 => ⟨S50000x256, .f32⟩
  | 50 => ⟨S800000x1, .i32⟩
  | 51 => ⟨S50000x256, .f32⟩
  | 52 => ⟨S50000, .f32⟩
  | 53 => ⟨S50000x1, .f32⟩
  | 54 => ⟨S50000x256, .f32⟩
  | 55 => ⟨S50000x256, .f32⟩
  | 56 => ⟨S50000x256, .f32⟩
  | 57 => ⟨S_, .f32⟩
  | 58 => ⟨S800000, .f32⟩
  | 59 => ⟨S_, .f32⟩
  | 60 => ⟨S50000, .f32⟩
  | 61 => ⟨S800000x1, .i32⟩
  | 62 => ⟨S50000, .f32⟩
  | 63 => ⟨S_, .f32⟩
  | 64 => ⟨S_, .f32⟩
  | 65 => ⟨S50000, .f32⟩
  | 66 => ⟨S50000, .f32⟩
  | 67 => ⟨S_, .f32⟩
  | 68 => ⟨S50000, .f32⟩
  | 69 => ⟨S800000x1, .i32⟩
  | 70 => ⟨S50000, .f32⟩
  | 71 => ⟨S_, .f32⟩
  | 72 => ⟨S_, .f32⟩
  | 73 => ⟨S50000, .f32⟩
  | 74 => ⟨S50000, .f32⟩
  | 75 => ⟨S50000, .f32⟩
  | 76 => ⟨S50000x1, .f32⟩
  | 77 => ⟨S50000x256, .f32⟩
  | 78 => ⟨S50000x256, .f32⟩
  | 79 => ⟨S_, .i32⟩
  | 80 => ⟨S800000, .i32⟩
  | 81 => ⟨S800000, .i1⟩
  | 82 => ⟨S_, .i32⟩
  | 83 => ⟨S800000, .i32⟩
  | 84 => ⟨S800000, .i32⟩
  | 85 => ⟨S800000, .i32⟩
  | 86 => ⟨S800000x1, .i32⟩
  | 87 => ⟨S800000x256, .f32⟩
  | 88 => ⟨S_, .f32⟩
  | 89 => ⟨S50000x256, .f32⟩
  | 90 => ⟨S800000x1, .i32⟩
  | 91 => ⟨S50000x256, .f32⟩
  | 92 => ⟨S50000, .f32⟩
  | 93 => ⟨S50000x1, .f32⟩
  | 94 => ⟨S50000x256, .f32⟩
  | 95 => ⟨S50000x256, .f32⟩
  | 96 => ⟨S50000x256, .f32⟩
  | 97 => ⟨S50000x256, .f32⟩
  | 98 => ⟨S_, .f32⟩
  | 99 => ⟨S800000, .f32⟩
  | 100 => ⟨S_, .f32⟩
  | 101 => ⟨S50000, .f32⟩
  | 102 => ⟨S800000x1, .i32⟩
  | 103 => ⟨S50000, .f32⟩
  | 104 => ⟨S_, .f32⟩
  | 105 => ⟨S_, .f32⟩
  | 106 => ⟨S50000, .f32⟩
  | 107 => ⟨S50000, .f32⟩
  | 108 => ⟨S_, .f32⟩
  | 109 => ⟨S50000, .f32⟩
  | 110 => ⟨S800000x1, .i32⟩
  | 111 => ⟨S50000, .f32⟩
  | 112 => ⟨S_, .f32⟩
  | 113 => ⟨S_, .f32⟩
  | 114 => ⟨S50000, .f32⟩
  | 115 => ⟨S50000, .f32⟩
  | 116 => ⟨S50000, .f32⟩
  | 117 => ⟨S50000x1, .f32⟩
  | 118 => ⟨S50000x256, .f32⟩
  | 119 => ⟨S50000x256, .f32⟩
  | 120 => ⟨S_, .i32⟩
  | 121 => ⟨S800000, .i32⟩
  | 122 => ⟨S800000, .i1⟩
  | 123 => ⟨S_, .i32⟩
  | 124 => ⟨S800000, .i32⟩
  | 125 => ⟨S800000, .i32⟩
  | 126 => ⟨S800000, .i32⟩
  | 127 => ⟨S800000x1, .i32⟩
  | _ => ⟨S50000x256, .f32⟩

abbrev hbmTy0_1 (i : Nat) : BufTy := match i % 128 with
  | 0 => ⟨S800000x256, .f32⟩
  | 1 => ⟨S_, .f32⟩
  | 2 => ⟨S50000x256, .f32⟩
  | 3 => ⟨S800000x1, .i32⟩
  | 4 => ⟨S50000x256, .f32⟩
  | 5 => ⟨S50000, .f32⟩
  | 6 => ⟨S50000x1, .f32⟩
  | 7 => ⟨S50000x256, .f32⟩
  | 8 => ⟨S50000x256, .f32⟩
  | 9 => ⟨S50000x256, .f32⟩
  | 10 => ⟨S_, .f32⟩
  | 11 => ⟨S50000, .f32⟩
  | 12 => ⟨S50000x1, .f32⟩
  | 13 => ⟨S_, .f32⟩
  | 14 => ⟨S50000x1, .f32⟩
  | 15 => ⟨S50000x1, .f32⟩
  | 16 => ⟨S50000x256, .f32⟩
  | 17 => ⟨S50000x256, .f32⟩
  | 18 => ⟨S50000x256, .f32⟩
  | 19 => ⟨S_, .f32⟩
  | 20 => ⟨S50000, .f32⟩
  | 21 => ⟨S50000x1, .f32⟩
  | 22 => ⟨S_, .f32⟩
  | 23 => ⟨S50000x1, .f32⟩
  | 24 => ⟨S50000x1, .f32⟩
  | 25 => ⟨S50000x256, .f32⟩
  | 26 => ⟨S50000x256, .f32⟩
  | 27 => ⟨S_, .f32⟩
  | 28 => ⟨S50000x1, .f32⟩
  | 29 => ⟨S50000x1, .f32⟩
  | 30 => ⟨S50000x1, .f32⟩
  | 31 => ⟨S50000x256, .f32⟩
  | 32 => ⟨S50000x256, .f32⟩
  | 33 => ⟨S1x256, .f32⟩
  | 34 => ⟨S50000x256, .f32⟩
  | 35 => ⟨S50000x256, .f32⟩
  | 36 => ⟨S1x256, .f32⟩
  | 37 => ⟨S50000x256, .f32⟩
  | 38 => ⟨S50000x256, .f32⟩
  | 39 => ⟨S1x256, .f32⟩
  | 40 => ⟨S50000x256, .f32⟩
  | 41 => ⟨S50000x256, .f32⟩
  | 42 => ⟨S_, .f32⟩
  | 43 => ⟨S50000x256, .f32⟩
  | 44 => ⟨S50000x256, .f32⟩
  | 45 => ⟨S_, .f32⟩
  | 46 => ⟨S50000, .f32⟩
  | 47 => ⟨S50000x1, .f32⟩
  | 48 => ⟨S_, .f32⟩
  | 49 => ⟨S50000x1, .f32⟩
  | 50 => ⟨S50000x1, .f32⟩
  | 51 => ⟨S50000x256, .f32⟩
  | 52 => ⟨S50000x256, .f32⟩
  | 53 => ⟨S50000x256, .f32⟩
  | 54 => ⟨S_, .f32⟩
  | 55 => ⟨S50000, .f32⟩
  | 56 => ⟨S50000x1, .f32⟩
  | 57 => ⟨S_, .f32⟩
  | 58 => ⟨S50000x1, .f32⟩
  | 59 => ⟨S50000x1, .f32⟩
  | 60 => ⟨S50000x256, .f32⟩
  | 61 => ⟨S50000x256, .f32⟩
  | 62 => ⟨S_, .f32⟩
  | 63 => ⟨S50000x1, .f32⟩
  | 64 => ⟨S50000x1, .f32⟩
  | 65 => ⟨S50000x1, .f32⟩
  | 66 => ⟨S50000x256, .f32⟩
  | 67 => ⟨S50000x256, .f32⟩
  | 68 => ⟨S1x256, .f32⟩
  | 69 => ⟨S50000x256, .f32⟩
  | 70 => ⟨S50000x256, .f32⟩
  | 71 => ⟨S1x256, .f32⟩
  | 72 => ⟨S50000x256, .f32⟩
  | 73 => ⟨S50000x256, .f32⟩
  | 74 => ⟨S1x256, .f32⟩
  | 75 => ⟨S50000x256, .f32⟩
  | 76 => ⟨S50000x256, .f32⟩
  | 77 => ⟨S_, .f32⟩
  | 78 => ⟨S50000x256, .f32⟩
  | 79 => ⟨S50000x256, .f32⟩
  | 80 => ⟨S1x50000x256, .f32⟩
  | 81 => ⟨S1x50000x256, .f32⟩
  | 82 => ⟨S2x50000x256, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_cst_0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst_1 : Ref sig .tc := ⟨.hbm, 23, rfl⟩
abbrev main_call0_v0 : Ref sig .tc := ⟨.hbm, 24, rfl⟩
abbrev main_call0_v1 : Ref sig .tc := ⟨.hbm, 25, rfl⟩
abbrev main_v4 : Ref sig .tc := ⟨.hbm, 26, rfl⟩
abbrev main_cst_2 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_cst_3 : Ref sig .tc := ⟨.hbm, 31, rfl⟩
abbrev main_call1_v0 : Ref sig .tc := ⟨.hbm, 32, rfl⟩
abbrev main_call1_v1 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_c : Ref sig .tc := ⟨.hbm, 39, rfl⟩
abbrev main_v13 : Ref sig .tc := ⟨.hbm, 40, rfl⟩
abbrev main_v14 : Ref sig .tc := ⟨.hbm, 41, rfl⟩
abbrev main_c_4 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_cst_5 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_cst_6 : Ref sig .tc := ⟨.hbm, 57, rfl⟩
abbrev main_v28 : Ref sig .tc := ⟨.hbm, 58, rfl⟩
abbrev main_cst_7 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_cst_8 : Ref sig .tc := ⟨.hbm, 63, rfl⟩
abbrev main_call2_v0 : Ref sig .tc := ⟨.hbm, 64, rfl⟩
abbrev main_call2_v1 : Ref sig .tc := ⟨.hbm, 65, rfl⟩
abbrev main_v32 : Ref sig .tc := ⟨.hbm, 66, rfl⟩
abbrev main_cst_9 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_cst_10 : Ref sig .tc := ⟨.hbm, 71, rfl⟩
abbrev main_call3_v0 : Ref sig .tc := ⟨.hbm, 72, rfl⟩
abbrev main_call3_v1 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_c_11 : Ref sig .tc := ⟨.hbm, 79, rfl⟩
abbrev main_v41 : Ref sig .tc := ⟨.hbm, 80, rfl⟩
abbrev main_v42 : Ref sig .tc := ⟨.hbm, 81, rfl⟩
abbrev main_c_12 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_cst_13 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_cst_14 : Ref sig .tc := ⟨.hbm, 98, rfl⟩
abbrev main_v57 : Ref sig .tc := ⟨.hbm, 99, rfl⟩
abbrev main_cst_15 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_cst_16 : Ref sig .tc := ⟨.hbm, 104, rfl⟩
abbrev main_call4_v0 : Ref sig .tc := ⟨.hbm, 105, rfl⟩
abbrev main_call4_v1 : Ref sig .tc := ⟨.hbm, 106, rfl⟩
abbrev main_v61 : Ref sig .tc := ⟨.hbm, 107, rfl⟩
abbrev main_cst_17 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_cst_18 : Ref sig .tc := ⟨.hbm, 112, rfl⟩
abbrev main_call5_v0 : Ref sig .tc := ⟨.hbm, 113, rfl⟩
abbrev main_call5_v1 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_c_19 : Ref sig .tc := ⟨.hbm, 120, rfl⟩
abbrev main_v70 : Ref sig .tc := ⟨.hbm, 121, rfl⟩
abbrev main_v71 : Ref sig .tc := ⟨.hbm, 122, rfl⟩
abbrev main_c_20 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_cst_21 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_cst_22 : Ref sig .tc := ⟨.hbm, 138, rfl⟩
abbrev main_v85 : Ref sig .tc := ⟨.hbm, 139, rfl⟩
abbrev main_v86 : Ref sig .tc := ⟨.hbm, 140, rfl⟩
abbrev main_cst_23 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_cst_24 : Ref sig .tc := ⟨.hbm, 147, rfl⟩
abbrev main_v92 : Ref sig .tc := ⟨.hbm, 148, rfl⟩
abbrev main_v93 : Ref sig .tc := ⟨.hbm, 149, rfl⟩
abbrev main_cst_25 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_cst_26 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_call6_cst : Ref sig .tc := ⟨.hbm, 170, rfl⟩
abbrev main_call6_v0 : Ref sig .tc := ⟨.hbm, 171, rfl⟩
abbrev main_v112 : Ref sig .tc := ⟨.hbm, 172, rfl⟩
abbrev main_cst_27 : Ref sig .tc := ⟨.hbm, 173, rfl⟩
abbrev main_v113 : Ref sig .tc := ⟨.hbm, 174, rfl⟩
abbrev main_v114 : Ref sig .tc := ⟨.hbm, 175, rfl⟩
abbrev main_cst_28 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩
abbrev main_v118 : Ref sig .tc := ⟨.hbm, 180, rfl⟩
abbrev main_v119 : Ref sig .tc := ⟨.hbm, 181, rfl⟩
abbrev main_cst_29 : Ref sig .tc := ⟨.hbm, 182, rfl⟩
abbrev main_v120 : Ref sig .tc := ⟨.hbm, 183, rfl⟩
abbrev main_v121 : Ref sig .tc := ⟨.hbm, 184, rfl⟩
abbrev main_cst_30 : Ref sig .tc := ⟨.hbm, 185, rfl⟩
abbrev main_v122 : Ref sig .tc := ⟨.hbm, 186, rfl⟩
abbrev main_v123 : Ref sig .tc := ⟨.hbm, 187, rfl⟩
abbrev main_v124 : Ref sig .tc := ⟨.hbm, 188, rfl⟩
abbrev main_v125 : Ref sig .tc := ⟨.hbm, 189, rfl⟩
abbrev main_cst_31 : Ref sig .tc := ⟨.hbm, 190, rfl⟩
abbrev main_v126 : Ref sig .tc := ⟨.hbm, 191, rfl⟩
abbrev main_v127 : Ref sig .tc := ⟨.hbm, 192, rfl⟩
abbrev main_v128 : Ref sig .tc := ⟨.hbm, 193, rfl⟩
abbrev main_v129 : Ref sig .tc := ⟨.hbm, 194, rfl⟩
abbrev main_v130 : Ref sig .tc := ⟨.hbm, 195, rfl⟩
abbrev main_v131 : Ref sig .tc := ⟨.hbm, 196, rfl⟩
abbrev main_v132 : Ref sig .tc := ⟨.hbm, 197, rfl⟩
abbrev main_v133 : Ref sig .tc := ⟨.hbm, 198, rfl⟩
abbrev main_v134 : Ref sig .tc := ⟨.hbm, 199, rfl⟩
abbrev main_v135 : Ref sig .tc := ⟨.hbm, 200, rfl⟩
abbrev main_v136 : Ref sig .tc := ⟨.hbm, 201, rfl⟩
abbrev main_v137 : Ref sig .tc := ⟨.hbm, 202, rfl⟩
abbrev main_v138 : Ref sig .tc := ⟨.hbm, 203, rfl⟩
abbrev main_v139 : Ref sig .tc := ⟨.hbm, 204, rfl⟩
abbrev main_call7_cst : Ref sig .tc := ⟨.hbm, 205, rfl⟩
abbrev main_call7_v0 : Ref sig .tc := ⟨.hbm, 206, rfl⟩
abbrev main_v140 : Ref sig .tc := ⟨.hbm, 207, rfl⟩
abbrev main_v141 : Ref sig .tc := ⟨.hbm, 208, rfl⟩
abbrev main_v142 : Ref sig .tc := ⟨.hbm, 209, rfl⟩
abbrev main_v143 : Ref sig .tc := ⟨.hbm, 210, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S_S50000x256 : S_.BroadcastsInDim S50000x256 (![] : Fin 0 → Fin S50000x256.rank)
  reducesTo_S50000x256_S50000_d1 : S50000x256.ReducesTo [1] S50000
  h_S_ : 0 < S_.numel
  bcast_S_S50000x1 : S_.BroadcastsInDim S50000x1 (![] : Fin 0 → Fin S50000x1.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S50000x256_S1x50000x256_1_2 : S50000x256.BroadcastsInDim S1x50000x256 (![1, 2] : Fin 2 → Fin S1x50000x256.rank)
  concatenates_S1x50000x256_S1x50000x256_S2x50000x256_d0 : Shape.Concatenates [S1x50000x256, S1x50000x256] S2x50000x256 0
  scatter_S50000_S800000x1_S800000_n_0_0_1_wf : ScatterDims.WF S50000 S800000x1 S800000 [] [0] [0] 1
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.LibPlainMatmul.lean ====
/-
  A plain matrix product into a zero accumulator, read at an entry, at the exact (extended-real) values.

  For an m×k matrix A and a k×n matrix B the product's (a, b) entry is the sum over the contracted coordinate c of
  A(a, c) · B(c, b): the contraction's index set has one axis, of extent k, and is re-indexed by its one coordinate.
-/
import Idealize.ShloMosaic.PureOps.Ideal.Laws
import Idealize.ShloMosaic.Lib.ValueIdx

noncomputable section

open scoped BigOperators

namespace Idealize.ShloMosaic.ValueIdx

open Idealize.ShloMosaic

/-- The (a, b) entry of the plain product of an m×k by a k×n matrix, accumulated into the zero matrix, is
    `∑ c, A (a, c) * B (c, b)` on the extended reals. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  show FloatOps.matmul (DotDims.plain m k n) prec A B (constant ⟨2, ![m, n]⟩ .f32 0x00000000#32) (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have er : (DotDims.plain m k n).rhsIdx (ix2 a b) ((contrEquiv1 (DotDims.plain m k n) k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [el, er]

end Idealize.ShloMosaic.ValueIdx

end
-- ==== Proof.LibColumnCast.lean ====
/-
  A vector cast to a column.

  An `[a]` array cast to `[a, 1]` (what a row reduction that keeps its axis produces) has the operand's entries down
  its one column: the entry at `(i, u)` is the operand's entry at `i`, whatever the unit coordinate `u`. Both indices
  have the same row-major position, `i = i · 1 + u` with `u = 0`.
-/
import Idealize.ShloMosaic.Lib.Pipeline.Value
import Idealize.ShloMosaic.Lib.ValueIdx

namespace Cert.LibColumnCast

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibColumnCast
-- ==== Proof.LibColumnBroadcast.lean ====
/-
  One column broadcast over many.

  An `[a, 1]` array broadcast to `[a, b]` repeats its one column: the entry at `(p, c)` is the operand's entry at
  `(p, 0)`, whatever the column `c`. (The row form, `[1, b]` to `[a, b]`, is the library's
  `broadcastTo_1b_ab_apply`; this is its transpose.)
-/
import Idealize.ShloMosaic.Lib.Pipeline.Value
import Idealize.ShloMosaic.Lib.ValueIdx

namespace Cert.LibColumnBroadcast

open Idealize.ShloMosaic Idealize.ShloMosaic.ValueIdx

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnBroadcast
-- ==== Proof.LibRowWise.lean ====
/-
  Operations that act on each row of an [m, n] array by itself, read at an entry, on the extended reals.

  For an array Z with m rows and n columns:
  * a length-n vector laid out as a [1, n] row and repeated down the m rows reads, at (a, b), the vector at b
    (`biasRow_apply`); a length-m vector laid out as an [m, 1] column and repeated across the n columns reads, at
    (a, b), the vector at a (`column_apply`);
  * reducing over the column axis inserts the column coordinate at position 1 (`lift_row`), so the host's maximum
    and sum over that axis read, at row a, the fold of max (the sum) over the row's n entries
    (`hostRowMax_apply`, `hostRowSum_apply`), and so do the vector reductions (`vecRowMax_apply`, `vecRowSum_apply`);
  * `logSoftmaxRow y q = (y q - max y) - log (Σ_k exp (y k - max y))` is the logarithm of the softmax of one row, and
    the host's chain of operations for it reads, at (a, b), that function of row a (`hostLogSoftmax_apply`);
  * the host's sum of an array and a bias row, clamped below at zero, reads at (a, b) max (Z(a, b) + v(b), 0)
    (`hostBiasRelu_apply`).
  Nothing here depends on m: a block of rows and the whole array are read by the same lemma.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowWise

open Idealize.ShloMosaic Idealize.ShloMosaic.ValueIdx

variable {α : Type}

/-- A vector as a row repeated down the rows, the host way, read at an entry. -/
theorem biasRow_apply {m n : ℕ} (v : (⟨1, ![n]⟩ : Shape).Idx → α)
    (g1 : (⟨1, ![n]⟩ : Shape).BroadcastsInDim ⟨2, ![1, n]⟩ ![1])
    (g2 : (⟨2, ![1, n]⟩ : Shape).BroadcastsInDim ⟨2, ![m, n]⟩ ![0, 1]) (a : Fin m) (b : Fin n) :
    broadcastInDim ⟨2, ![m, n]⟩ ![0, 1] g2 (broadcastInDim ⟨2, ![1, n]⟩ ![1] g1 v) (ix2 a b) = v (ix1 b) := by
  have hb : b.val = if n = 1 then 0 else b.val := by
    split
    · have := b.isLt; omega
    · rfl
  have hk2 : ∀ ax : Fin 2, ((ix2 (0 : Fin 1) b : (⟨2, ![1, n]⟩ : Shape).Idx) ax).val
      = if (⟨2, ![1, n]⟩ : Shape).size ax = 1 then 0 else ((ix2 a b : (⟨2, ![m, n]⟩ : Shape).Idx) ((![0, 1] : Fin 2 → Fin 2) ax)).val := fun ax =>
    match ax with
    | ⟨0, _⟩ => rfl
    | ⟨1, _⟩ => hb
  have hk1 : ∀ ax : Fin 1, ((ix1 b : (⟨1, ![n]⟩ : Shape).Idx) ax).val
      = if (⟨1, ![n]⟩ : Shape).size ax = 1 then 0 else ((ix2 (0 : Fin 1) b : (⟨2, ![1, n]⟩ : Shape).Idx) ((![1] : Fin 1 → Fin 2) ax)).val := fun ax =>
    match ax with
    | ⟨0, _⟩ => hb
  rw [broadcastInDim_apply _ g2 _ (ix2 a b) (ix2 (0 : Fin 1) b) hk2, broadcastInDim_apply _ g1 v (ix2 (0 : Fin 1) b) (ix1 b) hk1]

/-- An [m, 1] column repeated across the n columns, the host way, reads at (a, b) the column at row a. -/
theorem colSpread_apply {m n : ℕ} (w : (⟨2, ![m, 1]⟩ : Shape).Idx → α)
    (g2 : (⟨2, ![m, 1]⟩ : Shape).BroadcastsInDim ⟨2, ![m, n]⟩ ![0, 1]) (a : Fin m) (b : Fin n) :
    broadcastInDim ⟨2, ![m, n]⟩ ![0, 1] g2 w (ix2 a b) = w (ix2 a (0 : Fin 1)) := by
  have ha : a.val = if m = 1 then 0 else a.val := by
    split
    · have := a.isLt; omega
    · rfl
  have hk2 : ∀ ax : Fin 2, ((ix2 a (0 : Fin 1) : (⟨2, ![m, 1]⟩ : Shape).Idx) ax).val
      = if (⟨2, ![m, 1]⟩ : Shape).size ax = 1 then 0 else ((ix2 a b : (⟨2, ![m, n]⟩ : Shape).Idx) ((![0, 1] : Fin 2 → Fin 2) ax)).val := fun ax =>
    match ax with
    | ⟨0, _⟩ => ha
    | ⟨1, _⟩ => rfl
  rw [broadcastInDim_apply _ g2 _ (ix2 a b) (ix2 a (0 : Fin 1)) hk2]

/-- A length-m vector laid out as an [m, 1] column, the host way, reads at (a, 0) the vector at a. -/
theorem colLift_apply {m : ℕ} (v : (⟨1, ![m]⟩ : Shape).Idx → α)
    (g1 : (⟨1, ![m]⟩ : Shape).BroadcastsInDim ⟨2, ![m, 1]⟩ ![0]) (a : Fin m) :
    broadcastInDim ⟨2, ![m, 1]⟩ ![0] g1 v (ix2 a (0 : Fin 1)) = v (ix1 a) := by
  have ha : a.val = if m = 1 then 0 else a.val := by
    split
    · have := a.isLt; omega
    · rfl
  have hk1 : ∀ ax : Fin 1, ((ix1 a : (⟨1, ![m]⟩ : Shape).Idx) ax).val
      = if (⟨1, ![m]⟩ : Shape).size ax = 1 then 0 else ((ix2 a (0 : Fin 1) : (⟨2, ![m, 1]⟩ : Shape).Idx) ((![0] : Fin 1 → Fin 2) ax)).val := fun ax =>
    match ax with
    | ⟨0, _⟩ => ha
  rw [broadcastInDim_apply _ g1 v (ix2 a (0 : Fin 1)) (ix1 a) hk1]

/-- A vector as a column repeated across the columns, the host way, read at an entry. -/
theorem column_apply {m n : ℕ} (v : (⟨1, ![m]⟩ : Shape).Idx → α)
    (g1 : (⟨1, ![m]⟩ : Shape).BroadcastsInDim ⟨2, ![m, 1]⟩ ![0])
    (g2 : (⟨2, ![m, 1]⟩ : Shape).BroadcastsInDim ⟨2, ![m, n]⟩ ![0, 1]) (a : Fin m) (b : Fin n) :
    broadcastInDim ⟨2, ![m, n]⟩ ![0, 1] g2 (broadcastInDim ⟨2, ![m, 1]⟩ ![0] g1 v) (ix2 a b) = v (ix1 a) := by
  rw [colSpread_apply, colLift_apply]

/-- Over row a, the index with column coordinate k inserted is (a, k). -/
theorem lift_row {m n : ℕ} (h : (⟨2, ![m, n]⟩ : Shape).Reduces [1] ⟨1, ![m]⟩) (a : Fin m)
    (k : Fin ((⟨2, ![m, n]⟩ : Shape).size 1)) :
    h.lift (ix1 a) k = ix2 a (k : Fin n) := by
  funext c
  apply Fin.ext
  rw [Shape.Reduces.lift_val]
  unfold Shape.Reduces.liftVal
  match c with
  | ⟨0, _⟩ => rfl
  | ⟨1, _⟩ => rfl

/-- The host's maximum over the column axis, at row a: the fold of max over the row's entries. -/
theorem hostRowMax_apply {m n : ℕ} (Z : FVec Ideal ⟨2, ![m, n]⟩ .f32) (init : BitVec 32)
    (h' : (⟨2, ![m, n]⟩ : Shape).ReducesTo [1] ⟨1, ![m]⟩) (h : (⟨2, ![m, n]⟩ : Shape).Reduces [1] ⟨1, ![m]⟩)
    (hu : 0 < (⟨0, ![]⟩ : Shape).numel) (a : Fin m) :
    Host.reduce FloatOps.maximumf Z (constant ⟨0, ![]⟩ .f32 init) h' hu (ix1 a)
      = (Finset.univ : Finset (Fin n)).fold max (Ideal.ofBits .f32 init) (fun k => Z (ix2 a k)) := by
  rw [Host.reduce_eq_fold_single FloatOps.maximumf Z _ h' h hu (ix1 a)]
  have e : (Z ∘ h.lift (ix1 a)) = fun k : Fin n => Z (ix2 a k) := funext fun k => congrArg Z (lift_row h a k)
  rw [e]
  rfl

/-- The host's sum over the column axis from zero, at row a: the sum of the row's entries. -/
theorem hostRowSum_apply {m n : ℕ} (Z : FVec Ideal ⟨2, ![m, n]⟩ .f32)
    (h' : (⟨2, ![m, n]⟩ : Shape).ReducesTo [1] ⟨1, ![m]⟩) (h : (⟨2, ![m, n]⟩ : Shape).Reduces [1] ⟨1, ![m]⟩)
    (hu : 0 < (⟨0, ![]⟩ : Shape).numel) (a : Fin m) :
    Host.reduceAdd Z (constant ⟨0, ![]⟩ .f32 0x00000000#32) h' hu (ix1 a) = ∑ k : Fin n, Z (ix2 a k) := by
  show Ideal.hostReduceAdd h' Z (Ideal.ofBits .f32 0x00000000#32) (ix1 a) = _
  rw [Ideal.hostReduceAdd_single h' h, Ideal.ofBits_zero_f32, zero_add]
  exact Finset.sum_congr rfl fun k _ => congrArg Z (lift_row h a k)

/-- A vector maximum over the column axis, at row a: the fold of max over the row's entries. -/
theorem vecRowMax_apply {m n : ℕ} (Z : FVec Ideal ⟨2, ![m, n]⟩ .f32) (acc : BitVec 32)
    (h : (⟨2, ![m, n]⟩ : Shape).Reduces [1] ⟨1, ![m]⟩) (hφ : FKind.Formats .f32)
    (hacc : acc = FKind.maximumf.neutral .f32 hφ) (a : Fin m) :
    multiReduction .maximumf [1] ⟨1, ![m]⟩ Z acc h hφ hacc (ix1 a)
      = (Finset.univ : Finset (Fin n)).fold max (Ideal.ofBits .f32 acc) (fun k => Z (ix2 a k)) := by
  rw [Ideal.multiReduction_maximumf_single]
  have e : (Z ∘ h.lift (ix1 a)) = fun k : Fin n => Z (ix2 a k) := funext fun k => congrArg Z (lift_row h a k)
  rw [e]
  rfl

/-- A vector sum over the column axis, at row a: the sum of the row's entries. -/
theorem vecRowSum_apply {m n : ℕ} (Z : FVec Ideal ⟨2, ![m, n]⟩ .f32) (acc : BitVec 32)
    (h : (⟨2, ![m, n]⟩ : Shape).Reduces [1] ⟨1, ![m]⟩) (hφ : FKind.Formats .f32)
    (hacc : acc = FKind.add.neutral .f32 hφ) (a : Fin m) :
    multiReduction .add [1] ⟨1, ![m]⟩ Z acc h hφ hacc (ix1 a) = ∑ k : Fin n, Z (ix2 a k) := by
  rw [Ideal.multiReduction_add_single]
  exact Finset.sum_congr rfl fun k _ => congrArg Z (lift_row h a k)

/-- The largest entry of a row (from -∞, kept as its f32 word). -/
def rowMax {n : ℕ} (y : Fin n → EReal) : EReal :=
  (Finset.univ : Finset (Fin n)).fold max (Ideal.ofBits .f32 0xFF800000#32) y

/-- The logarithm of the softmax of one row, at column q. -/
def logSoftmaxRow {n : ℕ} (y : Fin n → EReal) (q : Fin n) : EReal :=
  (y q - rowMax y) - Ideal.log (∑ k : Fin n, Ideal.exp (y k - rowMax y))

/-- The f32 word of -∞ is neutral for the maximum of extended reals. -/
theorem max_neg_inf (z : EReal) : max (Ideal.ofBits .f32 0xFF800000#32) z = z := by
  have hb : Ideal.ofBits .f32 0xFF800000#32 = (⊥ : EReal) := by simp [Ideal.ofBits, Ideal.ieee]
  rw [hb]; exact max_bot_left z

/-- The host's log-softmax over the column axis: the row maximum from -∞ (and once more against -∞), subtracted;
    the exponentials summed from zero; the logarithm of the sum subtracted. -/
def hostLogSoftmax {m n : ℕ} (gN : (⟨0, ![]⟩ : Shape).BroadcastsInDim ⟨1, ![m]⟩ ![])
    (g1 : (⟨1, ![m]⟩ : Shape).BroadcastsInDim ⟨2, ![m, 1]⟩ ![0])
    (g2 : (⟨2, ![m, 1]⟩ : Shape).BroadcastsInDim ⟨2, ![m, n]⟩ ![0, 1])
    (h' : (⟨2, ![m, n]⟩ : Shape).ReducesTo [1] ⟨1, ![m]⟩) (hu : 0 < (⟨0, ![]⟩ : Shape).numel)
    (Z : FVec Ideal ⟨2, ![m, n]⟩ .f32) : FVec Ideal ⟨2, ![m, n]⟩ .f32 :=
  subf
    (subf Z (broadcastInDim ⟨2, ![m, n]⟩ ![0, 1] g2 (broadcastInDim ⟨2, ![m, 1]⟩ ![0] g1
      (maximumf (broadcastInDim ⟨1, ![m]⟩ ![] gN (constant (F := Ideal) ⟨0, ![]⟩ .f32 0xFF800000#32))
        (Host.reduce FloatOps.maximumf Z (constant (F := Ideal) ⟨0, ![]⟩ .f32 0xFF800000#32) h' hu)))))
    (broadcastInDim ⟨2, ![m, n]⟩ ![0, 1] g2 (Host.log (broadcastInDim ⟨2, ![m, 1]⟩ ![0] g1
      (Host.reduceAdd
        (Host.exp (subf Z (broadcastInDim ⟨2, ![m, n]⟩ ![0, 1] g2 (broadcastInDim ⟨2, ![m, 1]⟩ ![0] g1
          (maximumf (broadcastInDim ⟨1, ![m]⟩ ![] gN (constant (F := Ideal) ⟨0, ![]⟩ .f32 0xFF800000#32))
            (Host.reduce FloatOps.maximumf Z (constant (F := Ideal) ⟨0, ![]⟩ .f32 0xFF800000#32) h' hu))))))
        (constant (F := Ideal) ⟨0, ![]⟩ .f32 0x00000000#32) h' hu))))

/-- The maximum the host subtracts, repeated across the columns, reads at (a, b) the largest entry of row a. -/
theorem hostShift_apply {m n : ℕ} (gN : (⟨0, ![]⟩ : Shape).BroadcastsInDim ⟨1, ![m]⟩ ![])
    (g1 : (⟨1, ![m]⟩ : Shape).BroadcastsInDim ⟨2, ![m, 1]⟩ ![0])
    (g2 : (⟨2, ![m, 1]⟩ : Shape).BroadcastsInDim ⟨2, ![m, n]⟩ ![0, 1])
    (h' : (⟨2, ![m, n]⟩ : Shape).ReducesTo [1] ⟨1, ![m]⟩) (h : (⟨2, ![m, n]⟩ : Shape).Reduces [1] ⟨1, ![m]⟩)
    (hu : 0 < (⟨0, ![]⟩ : Shape).numel) (Z : FVec Ideal ⟨2, ![m, n]⟩ .f32) (a : Fin m) (b : Fin n) :
    broadcastInDim ⟨2, ![m, n]⟩ ![0, 1] g2 (broadcastInDim ⟨2, ![m, 1]⟩ ![0] g1
      (maximumf (broadcastInDim ⟨1, ![m]⟩ ![] gN (constant (F := Ideal) ⟨0, ![]⟩ .f32 0xFF800000#32))
        (Host.reduce FloatOps.maximumf Z (constant (F := Ideal) ⟨0, ![]⟩ .f32 0xFF800000#32) h' hu))) (ix2 a b)
      = rowMax (fun k => Z (ix2 a k)) := by
  rw [column_apply]
  show max (Ideal.ofBits .f32 0xFF800000#32)
      (Host.reduce FloatOps.maximumf Z (constant (F := Ideal) ⟨0, ![]⟩ .f32 0xFF800000#32) h' hu (ix1 a)) = _
  rw [max_neg_inf, hostRowMax_apply Z _ h' h hu a]
  rfl

/-- The logarithm of a column vector, taken on the [m, 1] column and then repeated across the columns, reads at
    (a, b) the logarithm of the vector at a. -/
theorem logColumn_apply {m n : ℕ} (S : FVec Ideal ⟨1, ![m]⟩ .f32)
    (g1 : (⟨1, ![m]⟩ : Shape).BroadcastsInDim ⟨2, ![m, 1]⟩ ![0])
    (g2 : (⟨2, ![m, 1]⟩ : Shape).BroadcastsInDim ⟨2, ![m, n]⟩ ![0, 1]) (a : Fin m) (b : Fin n) :
    broadcastInDim ⟨2, ![m, n]⟩ ![0, 1] g2 (Host.log (broadcastInDim ⟨2, ![m, 1]⟩ ![0] g1 S)) (ix2 a b)
      = Ideal.log (S (ix1 a)) := by
  rw [colSpread_apply]
  show Ideal.log (broadcastInDim ⟨2, ![m, 1]⟩ ![0] g1 S (ix2 a (0 : Fin 1))) = _
  rw [colLift_apply]

/-- The host's log-softmax reads, at (a, b), the log-softmax of row a at column b. -/
theorem hostLogSoftmax_apply {m n : ℕ} (gN : (⟨0, ![]⟩ : Shape).BroadcastsInDim ⟨1, ![m]⟩ ![])
    (g1 : (⟨1, ![m]⟩ : Shape).BroadcastsInDim ⟨2, ![m, 1]⟩ ![0])
    (g2 : (⟨2, ![m, 1]⟩ : Shape).BroadcastsInDim ⟨2, ![m, n]⟩ ![0, 1])
    (h' : (⟨2, ![m, n]⟩ : Shape).ReducesTo [1] ⟨1, ![m]⟩) (h : (⟨2, ![m, n]⟩ : Shape).Reduces [1] ⟨1, ![m]⟩)
    (hu : 0 < (⟨0, ![]⟩ : Shape).numel) (Z : FVec Ideal ⟨2, ![m, n]⟩ .f32) (a : Fin m) (b : Fin n) :
    hostLogSoftmax gN g1 g2 h' hu Z (ix2 a b) = logSoftmaxRow (fun k => Z (ix2 a k)) b := by
  unfold hostLogSoftmax logSoftmaxRow
  show (Z (ix2 a b) - _) - _ = _
  rw [hostShift_apply gN g1 g2 h' h hu Z a b, logColumn_apply, hostRowSum_apply _ h' h hu a]
  refine congrArg (fun s => (Z (ix2 a b) - rowMax (fun k => Z (ix2 a k))) - Ideal.log s) ?_
  refine Finset.sum_congr rfl fun k _ => ?_
  show Ideal.exp (Z (ix2 a k) - _) = _
  rw [hostShift_apply gN g1 g2 h' h hu Z a k]

/-- The host's sum of an array and a bias row, clamped below at zero, at an entry. -/
theorem hostBiasRelu_apply {m n : ℕ} (Z : FVec Ideal ⟨2, ![m, n]⟩ .f32) (v : FVec Ideal ⟨1, ![n]⟩ .f32)
    (g1 : (⟨1, ![n]⟩ : Shape).BroadcastsInDim ⟨2, ![1, n]⟩ ![1])
    (g2 : (⟨2, ![1, n]⟩ : Shape).BroadcastsInDim ⟨2, ![m, n]⟩ ![0, 1])
    (g0 : (⟨0, ![]⟩ : Shape).BroadcastsInDim ⟨2, ![m, n]⟩ ![]) (a : Fin m) (b : Fin n) :
    maximumf (addf Z (broadcastInDim ⟨2, ![m, n]⟩ ![0, 1] g2 (broadcastInDim ⟨2, ![1, n]⟩ ![1] g1 v)))
        (broadcastInDim ⟨2, ![m, n]⟩ ![] g0 (constant (F := Ideal) ⟨0, ![]⟩ .f32 0x00000000#32)) (ix2 a b)
      = max (Z (ix2 a b) + v (ix1 b)) (Ideal.ofBits .f32 0x00000000#32) := by
  show max (Z (ix2 a b) + broadcastInDim ⟨2, ![m, n]⟩ ![0, 1] g2 (broadcastInDim ⟨2, ![1, n]⟩ ![1] g1 v) (ix2 a b)) _ = _
  rw [biasRow_apply]
  rfl

end Cert.RowWise

end
-- ==== Proof.LayerSpec.lean ====
/-
  One layer of a graph network over two kinds of node, after the sums over neighbours have been taken: what each
  output row is, as a function of that row's own data.

  For one relation the layer has an [m, 256] array A of summed neighbour features, a column d of m scale factors
  (the inverse square roots of the in-degrees) and a 256 × 256 weight matrix W; the relation's contribution to row r
  is the row vector  q ↦ Σ_c (A(r, c) · d(r)) · W(c, q)  (`scaledRow`). The first kind of node receives one relation,
  the second the sum of two. Each resulting row y of 256 numbers is then normalised: with
    mean y = (Σ_k y_k) / 256   and   var y = (Σ_k (y_k - mean y)²) / 256,
  the output is  max (((y_q - mean y) · (var y + ε)^(-1/2)) · γ_q + β_q + b_q, 0)  (`normRelu`), ε the f32 nearest 1e-5.
  The two kinds of node are stacked along a leading axis of extent 2 (`layer`).

  Everything is on the extended reals; the three float constants are kept as their f32 words, which denote 256, the
  f32 nearest 1e-5, and 0. An output entry (s, r, q) depends on row r of each per-row operand and on nothing of the
  other rows (`layer_row`): this is why a block of consecutive rows of the arrays computes the same rows of the result.
-/
import Idealize.ShloMosaic.PureOps.Ideal
import Idealize.ShloMosaic.Lib.ValueIdx

noncomputable section

open scoped BigOperators

namespace Cert.Layer

open Idealize.ShloMosaic Idealize.ShloMosaic.ValueIdx

/-! ## Arrays by their coordinates -/

/-- A two-axis array as a function of its row and its column. -/
abbrev rows {α : Type} {m n : ℕ} (x : (⟨2, ![m, n]⟩ : Shape).Idx → α) : Fin m → Fin n → α := fun r c => x (ix2 r c)

/-- An [m, 1] array as a function of its row. -/
abbrev col {α : Type} {m : ℕ} (x : (⟨2, ![m, 1]⟩ : Shape).Idx → α) : Fin m → α := fun r => x (ix2 r (0 : Fin 1))

/-- A [1, n] array as a function of its column. -/
abbrev row1 {α : Type} {n : ℕ} (x : (⟨2, ![1, n]⟩ : Shape).Idx → α) : Fin n → α := fun k => x (ix2 (0 : Fin 1) k)

/-- A one-axis array as a function of its coordinate. -/
abbrev vec {α : Type} {n : ℕ} (x : (⟨1, ![n]⟩ : Shape).Idx → α) : Fin n → α := fun k => x (ix1 k)

/-! ## One output row -/

/-- The mean of a row of 256 numbers: their sum divided by 256. -/
def mean (y : Fin 256 → EReal) : EReal := Ideal.div (∑ k : Fin 256, y k) (Ideal.ofBits .f32 0x43800000#32)

/-- The variance of a row: the mean of the squared deviations from the row's mean. -/
def var (y : Fin 256 → EReal) : EReal :=
  Ideal.div (∑ k : Fin 256, (y k - mean y) * (y k - mean y)) (Ideal.ofBits .f32 0x43800000#32)

/-- A row normalised to mean 0 and variance 1 (up to ε), scaled by γ, shifted by β and by the bias b, clamped below at 0. -/
def normRelu (y γ β b : Fin 256 → EReal) (q : Fin 256) : EReal :=
  max ((((y q - mean y) * Ideal.rsqrt (var y + Ideal.ofBits .f32 0x3727C5AC#32)) * γ q + β q) + b q)
    (Ideal.ofBits .f32 0x00000000#32)

/-- One relation's contribution to row r: the row of A scaled by d(r), times W. -/
def scaledRow {m : ℕ} (a : Fin m → Fin 256 → EReal) (d : Fin m → EReal) (w : Fin 256 → Fin 256 → EReal)
    (r : Fin m) (q : Fin 256) : EReal :=
  ∑ c : Fin 256, (a r c * d r) * w c q

/-- The layer's output at (s, r, q): slab 0 is the first kind of node (one relation), slab 1 the second (two). -/
def layer {m : ℕ} (a₁ a₀ a₂ : Fin m → Fin 256 → EReal) (d₁ d₀ d₂ : Fin m → EReal)
    (w₁ w₀ w₂ : Fin 256 → Fin 256 → EReal) (γ₀ β₀ b₀ γ₁ β₁ b₁ : Fin 256 → EReal)
    (s : Fin 2) (r : Fin m) (q : Fin 256) : EReal :=
  if s.val = 0 then normRelu (scaledRow a₀ d₀ w₀ r) γ₀ β₀ b₀ q
  else normRelu (fun q' => scaledRow a₁ d₁ w₁ r q' + scaledRow a₂ d₂ w₂ r q') γ₁ β₁ b₁ q

/-- An output entry depends on its own row of the per-row operands, and on the weights and the vectors: two families of
    operands, possibly of different heights, whose per-row operands agree on row r of the one and row r' of the other
    and whose weights and vectors are equal give the same entry there. -/
theorem layer_row {m m' : ℕ} (a₁ a₀ a₂ : Fin m → Fin 256 → EReal) (d₁ d₀ d₂ : Fin m → EReal)
    (w₁ w₀ w₂ : Fin 256 → Fin 256 → EReal) (γ₀ β₀ b₀ γ₁ β₁ b₁ : Fin 256 → EReal)
    (a₁' a₀' a₂' : Fin m' → Fin 256 → EReal) (d₁' d₀' d₂' : Fin m' → EReal)
    (w₁' w₀' w₂' : Fin 256 → Fin 256 → EReal) (γ₀' β₀' b₀' γ₁' β₁' b₁' : Fin 256 → EReal)
    (s : Fin 2) (r : Fin m) (r' : Fin m') (q : Fin 256)
    (h₁ : a₁ r = a₁' r') (h₀ : a₀ r = a₀' r') (h₂ : a₂ r = a₂' r')
    (e₁ : d₁ r = d₁' r') (e₀ : d₀ r = d₀' r') (e₂ : d₂ r = d₂' r')
    (hw₁ : w₁ = w₁') (hw₀ : w₀ = w₀') (hw₂ : w₂ = w₂')
    (hγ₀ : γ₀ = γ₀') (hβ₀ : β₀ = β₀') (hb₀ : b₀ = b₀') (hγ₁ : γ₁ = γ₁') (hβ₁ : β₁ = β₁') (hb₁ : b₁ = b₁') :
    layer a₁ a₀ a₂ d₁ d₀ d₂ w₁ w₀ w₂ γ₀ β₀ b₀ γ₁ β₁ b₁ s r q
      = layer a₁' a₀' a₂' d₁' d₀' d₂' w₁' w₀' w₂' γ₀' β₀' b₀' γ₁' β₁' b₁' s r' q := by
  subst hw₁ hw₀ hw₂ hγ₀ hβ₀ hb₀ hγ₁ hβ₁ hb₁
  unfold layer scaledRow
  rw [h₁, h₀, h₂, e₁, e₀, e₂]

end Cert.Layer

end
-- ==== Proof.BlockChain.lean ====
/-
  The vector operations a block of m rows goes through, read at an entry on the extended reals.

  Y is an [m, 256] block of rows.
  * `meanCol Y` is the [m, 1] column of the rows' means: the rows summed from zero along the column axis, the sums laid
    out as a column, divided by 256. At row p it is `mean` of row p (`meanCol_apply`).
  * `varCol Y` is the column of the rows' variances: the mean column repeated across the columns and subtracted, the
    differences squared, and again summed, laid out as a column and divided by 256 (`varCol_apply`).
  * `vecNorm Y g β b` is the block normalised row by row — the mean column subtracted, the result multiplied by the
    column of (variance + ε)^(-1/2) — then multiplied by the one-row matrix g and shifted by the one-row matrices β and b
    (each repeated down the m rows), clamped below at zero, and given a leading axis of extent one. At (0, p, q) it is
    `normRelu` of row p at column q (`vecNorm_apply`).
  * `scaledProduct a d w` is the block a with each row scaled by the matching entry of the column d, narrowed to a
    shorter float format (the identity on exact values) and multiplied into zero by the 256 × 256 matrix w. At (p, q)
    it is Σ_c (a(p, c) · d(p, 0)) · w(c, q) (`scaledProduct_apply`).
  Every entry is a function of row p of the block alone, whatever m is.
-/
import Idealize.ShloMosaic.PureOps.Ideal.Laws
import Idealize.ShloMosaic.Lib.ValueIdx
import Idealize.ShloMosaic.Lib.ValueLayout
import Idealize.ShloMosaic.Lib.Pipeline.Value
import proofs.«121337_j10325101379594_2_alg».proof.Proof.LibPlainMatmul
import proofs.«121337_j10325101379594_2_alg».proof.Proof.LibColumnCast
import proofs.«121337_j10325101379594_2_alg».proof.Proof.LibColumnBroadcast
import proofs.«121337_j10325101379594_2_alg».proof.Proof.LibRowWise
import proofs.«121337_j10325101379594_2_alg».proof.Proof.LayerSpec

noncomputable section

open scoped BigOperators

namespace Cert.BlockChain

open Idealize.ShloMosaic Idealize.ShloMosaic.ValueIdx Cert.Layer Cert.RowWise

section Norm

variable {m : ℕ} (hr : (⟨2, ![m, 256]⟩ : Shape).Reduces [1] ⟨1, ![m]⟩) (hφ : FKind.Formats .f32)
  (hadd : (0x00000000#32 : BitVec 32) = FKind.add.neutral .f32 hφ)
  (hcol : (⟨1, ![m]⟩ : Shape).ShapeCasts ⟨2, ![m, 1]⟩)
  (hsp : (⟨2, ![m, 1]⟩ : Shape).Broadcasts ⟨2, ![m, 256]⟩)

/-- The column of the rows' means. -/
def meanCol (Y : FVec Ideal ⟨2, ![m, 256]⟩ .f32) : FVec Ideal ⟨2, ![m, 1]⟩ .f32 :=
  divf (shapeCast ⟨2, ![m, 1]⟩ (multiReduction .add [1] ⟨1, ![m]⟩ Y 0x00000000#32 hr hφ hadd) hcol)
    (broadcast ⟨2, ![m, 1]⟩ (Scalar.ofBits .f32 0x43800000#32 : Ideal .f32))

/-- At row p the mean column holds the mean of row p. -/
theorem meanCol_apply (Y : FVec Ideal ⟨2, ![m, 256]⟩ .f32) (p : Fin m) (u : Fin 1) :
    meanCol hr hφ hadd hcol Y (ix2 p u) = mean (fun k => Y (ix2 p k)) := by
  show Ideal.div (shapeCast ⟨2, ![m, 1]⟩ (multiReduction .add [1] ⟨1, ![m]⟩ Y 0x00000000#32 hr hφ hadd) hcol (ix2 p u))
    (Ideal.ofBits .f32 0x43800000#32) = _
  rw [Cert.LibColumnCast.shapeCast_a_a1_apply, vecRowSum_apply]
  rfl

/-- The column of the rows' variances. -/
def varCol (Y : FVec Ideal ⟨2, ![m, 256]⟩ .f32) : FVec Ideal ⟨2, ![m, 1]⟩ .f32 :=
  divf (shapeCast ⟨2, ![m, 1]⟩ (multiReduction .add [1] ⟨1, ![m]⟩
      (mulf (subf Y (broadcastTo ⟨2, ![m, 256]⟩ (meanCol hr hφ hadd hcol Y) hsp))
        (subf Y (broadcastTo ⟨2, ![m, 256]⟩ (meanCol hr hφ hadd hcol Y) hsp)))
      0x00000000#32 hr hφ hadd) hcol)
    (broadcast ⟨2, ![m, 1]⟩ (Scalar.ofBits .f32 0x43800000#32 : Ideal .f32))

/-- The mean column repeated across the columns reads, at (p, k), the mean of row p. -/
theorem meanSpread_apply (Y : FVec Ideal ⟨2, ![m, 256]⟩ .f32) (p : Fin m) (k : Fin 256) :
    broadcastTo ⟨2, ![m, 256]⟩ (meanCol hr hφ hadd hcol Y) hsp (ix2 p k) = mean (fun k => Y (ix2 p k)) := by
  rw [Cert.LibColumnBroadcast.broadcastTo_a1_ab_apply, meanCol_apply]

/-- At row p the variance column holds the variance of row p. -/
theorem varCol_apply (Y : FVec Ideal ⟨2, ![m, 256]⟩ .f32) (p : Fin m) (u : Fin 1) :
    varCol hr hφ hadd hcol hsp Y (ix2 p u) = var (fun k => Y (ix2 p k)) := by
  show Ideal.div (shapeCast ⟨2, ![m, 1]⟩ (multiReduction .add [1] ⟨1, ![m]⟩
      (mulf (subf Y (broadcastTo ⟨2, ![m, 256]⟩ (meanCol hr hφ hadd hcol Y) hsp))
        (subf Y (broadcastTo ⟨2, ![m, 256]⟩ (meanCol hr hφ hadd hcol Y) hsp)))
      0x00000000#32 hr hφ hadd) hcol (ix2 p u)) (Ideal.ofBits .f32 0x43800000#32) = _
  rw [Cert.LibColumnCast.shapeCast_a_a1_apply, vecRowSum_apply]
  unfold var
  refine congrArg (fun s => Ideal.div s (Ideal.ofBits .f32 0x43800000#32)) (Finset.sum_congr rfl fun k _ => ?_)
  show (Y (ix2 p k) - broadcastTo ⟨2, ![m, 256]⟩ (meanCol hr hφ hadd hcol Y) hsp (ix2 p k))
      * (Y (ix2 p k) - broadcastTo ⟨2, ![m, 256]⟩ (meanCol hr hφ hadd hcol Y) hsp (ix2 p k)) = _
  rw [meanSpread_apply]

variable (hc1 : (⟨2, ![1, 256]⟩ : Shape).ShapeCasts ⟨2, ![1, 256]⟩)
  (hb : (⟨2, ![1, 256]⟩ : Shape).Broadcasts ⟨2, ![m, 256]⟩)
  (hup : (⟨2, ![m, 256]⟩ : Shape).ShapeCasts ⟨3, ![1, m, 256]⟩)

/-- The block normalised row by row, scaled and shifted by one-row matrices, clamped at zero, with a leading unit axis. -/
def vecNorm (Y : FVec Ideal ⟨2, ![m, 256]⟩ .f32) (g β b : FVec Ideal ⟨2, ![1, 256]⟩ .f32) :
    FVec Ideal ⟨3, ![1, m, 256]⟩ .f32 :=
  shapeCast ⟨3, ![1, m, 256]⟩
    (maximumf
      (addf
        (addf
          (mulf
            (mulf (subf Y (broadcastTo ⟨2, ![m, 256]⟩ (meanCol hr hφ hadd hcol Y) hsp))
              (broadcastTo ⟨2, ![m, 256]⟩
                (rsqrt (addf (varCol hr hφ hadd hcol hsp Y)
                  (broadcast ⟨2, ![m, 1]⟩ (Scalar.ofBits .f32 0x3727C5AC#32 : Ideal .f32)))) hsp))
            (broadcastTo ⟨2, ![m, 256]⟩ (shapeCast ⟨2, ![1, 256]⟩ g hc1) hb))
          (broadcastTo ⟨2, ![m, 256]⟩ (shapeCast ⟨2, ![1, 256]⟩ β hc1) hb))
        (broadcastTo ⟨2, ![m, 256]⟩ (shapeCast ⟨2, ![1, 256]⟩ b hc1) hb))
      (broadcast ⟨2, ![m, 256]⟩ (Scalar.ofBits .f32 0x00000000#32 : Ideal .f32)))
    hup

/-- A one-row matrix repeated down the rows reads, at (p, q), its entry at column q. -/
theorem rowSpread_apply (g : FVec Ideal ⟨2, ![1, 256]⟩ .f32) (p : Fin m) (q : Fin 256) :
    broadcastTo ⟨2, ![m, 256]⟩ (shapeCast ⟨2, ![1, 256]⟩ g hc1) hb (ix2 p q) = g (ix2 (0 : Fin 1) q) := by
  rw [shapeCast_self, broadcastTo_1b_ab_apply]

/-- The normalised block at (0, p, q) is the normalisation of row p at column q. -/
theorem vecNorm_apply (Y : FVec Ideal ⟨2, ![m, 256]⟩ .f32) (g β b : FVec Ideal ⟨2, ![1, 256]⟩ .f32)
    (z : Fin 1) (p : Fin m) (q : Fin 256) :
    vecNorm hr hφ hadd hcol hsp hc1 hb hup Y g β b (ix3 z p q)
      = normRelu (fun k => Y (ix2 p k)) (fun k => g (ix2 (0 : Fin 1) k)) (fun k => β (ix2 (0 : Fin 1) k))
          (fun k => b (ix2 (0 : Fin 1) k)) q := by
  unfold vecNorm
  rw [shapeCast_addUnit_apply ![m, 256]]
  have hj : (fun a : Fin 2 => (ix3 z p q : (⟨3, ![1, m, 256]⟩ : Shape).Idx) a.succ) = ix2 p q :=
    funext fun a => by match a with | ⟨0, _⟩ => rfl | ⟨1, _⟩ => rfl
  rw [hj]
  show max ((((Y (ix2 p q) - broadcastTo ⟨2, ![m, 256]⟩ (meanCol hr hφ hadd hcol Y) hsp (ix2 p q))
        * broadcastTo ⟨2, ![m, 256]⟩
            (rsqrt (addf (varCol hr hφ hadd hcol hsp Y)
              (broadcast ⟨2, ![m, 1]⟩ (Scalar.ofBits .f32 0x3727C5AC#32 : Ideal .f32)))) hsp (ix2 p q))
        * broadcastTo ⟨2, ![m, 256]⟩ (shapeCast ⟨2, ![1, 256]⟩ g hc1) hb (ix2 p q)
        + broadcastTo ⟨2, ![m, 256]⟩ (shapeCast ⟨2, ![1, 256]⟩ β hc1) hb (ix2 p q))
        + broadcastTo ⟨2, ![m, 256]⟩ (shapeCast ⟨2, ![1, 256]⟩ b hc1) hb (ix2 p q))
      (Ideal.ofBits .f32 0x00000000#32) = _
  rw [meanSpread_apply, rowSpread_apply, rowSpread_apply, rowSpread_apply,
    Cert.LibColumnBroadcast.broadcastTo_a1_ab_apply]
  show max ((((Y (ix2 p q) - mean (fun k => Y (ix2 p k)))
        * Ideal.rsqrt (varCol hr hφ hadd hcol hsp Y (ix2 p (0 : Fin 1)) + Ideal.ofBits .f32 0x3727C5AC#32))
        * g (ix2 (0 : Fin 1) q) + β (ix2 (0 : Fin 1) q)) + b (ix2 (0 : Fin 1) q))
      (Ideal.ofBits .f32 0x00000000#32) = _
  rw [varCol_apply]
  rfl

end Norm

section Product

variable {m : ℕ} (hca : (⟨2, ![m, 256]⟩ : Shape).ShapeCasts ⟨2, ![m, 256]⟩)
  (hcd : (⟨2, ![m, 1]⟩ : Shape).ShapeCasts ⟨2, ![m, 1]⟩)
  (hcw : (⟨2, ![256, 256]⟩ : Shape).ShapeCasts ⟨2, ![256, 256]⟩)
  (hsp : (⟨2, ![m, 1]⟩ : Shape).Broadcasts ⟨2, ![m, 256]⟩)
  (ht : FTy.bf16.bits < FTy.f32.bits)

/-- A block with its rows scaled by a column, narrowed, times a 256 × 256 matrix, into zero. -/
def scaledProduct (D : DotDims ⟨2, ![m, 256]⟩ ⟨2, ![256, 256]⟩ ⟨2, ![m, 256]⟩)
    (w : FVec Ideal ⟨2, ![256, 256]⟩ .bf16) (a : FVec Ideal ⟨2, ![m, 256]⟩ .f32) (d : FVec Ideal ⟨2, ![m, 1]⟩ .f32) :
    FVec Ideal ⟨2, ![m, 256]⟩ .f32 :=
  matmul D none
    (truncf .bf16 (mulf (shapeCast ⟨2, ![m, 256]⟩ a hca)
      (broadcastTo ⟨2, ![m, 256]⟩ (shapeCast ⟨2, ![m, 1]⟩ d hcd) hsp)) ht)
    (shapeCast ⟨2, ![256, 256]⟩ w hcw) (constant ⟨2, ![m, 256]⟩ .f32 0x00000000#32)

/-- Its entry (p, q) is Σ_c (a(p, c) · d(p, 0)) · w(c, q). -/
theorem scaledProduct_apply (D : DotDims ⟨2, ![m, 256]⟩ ⟨2, ![256, 256]⟩ ⟨2, ![m, 256]⟩)
    (hD : D = DotDims.plain m 256 256)
    (w : FVec Ideal ⟨2, ![256, 256]⟩ .bf16) (a : FVec Ideal ⟨2, ![m, 256]⟩ .f32) (d : FVec Ideal ⟨2, ![m, 1]⟩ .f32)
    (p : Fin m) (q : Fin 256) :
    scaledProduct hca hcd hcw hsp ht D w a d (ix2 p q)
      = ∑ c : Fin 256, (a (ix2 p c) * d (ix2 p (0 : Fin 1))) * w (ix2 c q) := by
  subst hD
  unfold scaledProduct
  rw [matmul_plain_zero_apply]
  refine Finset.sum_congr rfl fun c _ => ?_
  rw [shapeCast_self, shapeCast_self, shapeCast_self]
  show (a (ix2 p c) * broadcastTo ⟨2, ![m, 256]⟩ d hsp (ix2 p c)) * w (ix2 c q) = _
  rw [Cert.LibColumnBroadcast.broadcastTo_a1_ab_apply]

end Product

end Cert.BlockChain

end
-- ==== Proof.KernelBlock.lean ====
/-
  What one grid point of the kernel leaves in its output block, as a function of the blocks it loaded.

  A grid point holds 2000 consecutive rows of each per-row operand: three [2000, 256] blocks of summed neighbour
  features, three [2000, 1] columns of scale factors, and, whole, the three 256 × 256 weight matrices and six
  [1, 256] rows (scale, shift and bias for each kind of node). Its output block is [2, 2000, 256]: the body stores slab 0
  (the first kind of node: one relation, normalised) through the rectangle at offset (0, 0, 0) and slab 1 (the second
  kind: two relations summed, normalised) through the rectangle at offset (1, 0, 0). Each stored value is one of the
  vector chains of Proof/BlockChain.lean, so each entry is `layer` at the entry's slab, row and column
  (`out_eq`): the block computes, for each of its 2000 rows, the layer's output row from that row's data.
-/
import proofs.«121337_j10325101379594_2_alg».proof.Proof.Gen.KernelIdeal.Frame
import proofs.«121337_j10325101379594_2_alg».proof.Proof.BlockChain

set_option maxRecDepth 16384

noncomputable section

open scoped BigOperators

namespace Cert.KernelIdeal.Block

open Cert.KernelIdeal Cert.KernelIdeal.Gen
open Idealize.ShloMosaic Idealize.ShloMosaic.ValueIdx Cert.Layer Cert.BlockChain

/-! ## The body's values are the block chains -/

/-- The body's contraction record is the plain m × k by k × n one. -/
theorem dot_plain : dot_S2000x256_S256x256_S2000x256_1_0_0_1_n_n = DotDims.plain 2000 256 256 := rfl

/-- One relation's product on a block: rows scaled by the column, narrowed, times the weights into zero. -/
abbrev prod (w : FVec Ideal S256x256 .bf16) (a : FVec Ideal S2000x256 .f32) (d : FVec Ideal S2000x1 .f32) :
    FVec Ideal S2000x256 .f32 :=
  scaledProduct (m := 2000) shapeCasts_S2000x256_S2000x256 shapeCasts_S2000x1_S2000x1 shapeCasts_S256x256_S256x256
    broadcasts_S2000x1_S2000x256 bitsLt_bf16_f32 dot_S2000x256_S256x256_S2000x256_1_0_0_1_n_n w a d

/-- A block normalised row by row, scaled, shifted, clamped, with a leading unit axis. -/
abbrev norm (Y : FVec Ideal S2000x256 .f32) (g β b : FVec Ideal S1x256 .f32) : FVec Ideal S1x2000x256 .f32 :=
  vecNorm (m := 2000) reduces_S2000x256_S2000 (.inl rfl) rfl shapeCasts_S2000_S2000x1 broadcasts_S2000x1_S2000x256
    shapeCasts_S1x256_S1x256 broadcasts_S1x256_S2000x256 shapeCasts_S2000x256_S1x2000x256 Y g β b

theorem pay2_eq (w : FVec Ideal S256x256 .bf16) (a : FVec Ideal S2000x256 .f32) (d : FVec Ideal S2000x1 .f32) :
    k0_pay2 (F := Ideal) w a d = prod w a d := rfl

theorem pay3_eq (w₁ w₂ : FVec Ideal S256x256 .bf16) (a₁ : FVec Ideal S2000x256 .f32) (d₁ : FVec Ideal S2000x1 .f32)
    (a₂ : FVec Ideal S2000x256 .f32) (d₂ : FVec Ideal S2000x1 .f32) :
    k0_pay3 (F := Ideal) w₁ w₂ a₁ d₁ a₂ d₂ = addf (prod w₁ a₁ d₁) (prod w₂ a₂ d₂) := rfl

/-- Slab 0's stored value: the one relation's product, normalised. -/
theorem pay6_eq (w : FVec Ideal S256x256 .bf16) (a : FVec Ideal S2000x256 .f32) (d : FVec Ideal S2000x1 .f32)
    (g β b : FVec Ideal S1x256 .f32) :
    k0_pay6 (F := Ideal) (k0_pay2 w a d) (k0_pay4 w a d) (k0_pay5 w a d) g β b = norm (prod w a d) g β b := rfl

/-- Slab 1's stored value: the sum of two relations' products, normalised. -/
theorem pay1_eq (Y : FVec Ideal S2000x256 .f32) (g β b : FVec Ideal S1x256 .f32) :
    k0_pay1 (F := Ideal) Y (k0_pay8 Y) (k0_pay9 Y) g β b = norm Y g β b := rfl

/-! ## Each stored value, read at an entry -/

/-- One relation's product on a block at (p, q). -/
theorem prod_apply (w : FVec Ideal S256x256 .bf16) (a : FVec Ideal S2000x256 .f32) (d : FVec Ideal S2000x1 .f32)
    (p : Fin 2000) (q : Fin 256) : prod w a d (ix2 p q) = scaledRow (rows a) (col d) (rows w) p q :=
  scaledProduct_apply _ _ _ _ _ _ dot_plain w a d p q

/-- A normalised block at (z, p, q). -/
theorem norm_apply (Y : FVec Ideal S2000x256 .f32) (g β b : FVec Ideal S1x256 .f32) (z : Fin 1) (p : Fin 2000)
    (q : Fin 256) :
    norm Y g β b (ix3 z p q) = normRelu (fun k => Y (ix2 p k)) (row1 g) (row1 β) (row1 b) q :=
  vecNorm_apply _ _ _ _ _ _ _ _ Y g β b z p q

/-! ## The output block -/

/-- The output block as one function of its index: the layer, at 2000 rows, of the loaded blocks. -/
def blockOut (x0 x1 x2 : FVec Ideal S2000x256 .f32) (x3 x4 x5 : FVec Ideal S256x256 .bf16)
    (x6 x7 x8 : FVec Ideal S2000x1 .f32) (x9 x10 x11 x12 x13 x14 : FVec Ideal S1x256 .f32) :
    S2x2000x256.Idx → EReal := fun y =>
  layer (m := 2000) (rows x0) (rows x1) (rows x2) (col x6) (col x7) (col x8) (rows x3) (rows x4) (rows x5)
    (row1 x9) (row1 x10) (row1 x11) (row1 x12) (row1 x13) (row1 x14) (y 0) (y 1) (y 2)

theorem hz2 : (![0, 0] : Fin 2 → Nat) = fun _ => 0 := funext fun a => by fin_cases a <;> rfl

/-- Slab 0's rectangle places (z, p, q) at (0, p, q). -/
theorem emb_slab0 (z : Fin 1) (p : Fin 2000) (q : Fin 256) :
    r0_4.emb (ix3 z p q) = (ix3 (0 : Fin 2) p q : S2x2000x256.Idx) := by
  funext a; apply Fin.ext
  match a with
  | ⟨0, _⟩ => show 0 + 1 * z.val = 0; omega
  | ⟨1, _⟩ => show 0 + 1 * p.val = p.val; omega
  | ⟨2, _⟩ => show 0 + 1 * q.val = q.val; omega

/-- Slab 1's rectangle places (z, p, q) at (1, p, q). -/
theorem emb_slab1 (z : Fin 1) (p : Fin 2000) (q : Fin 256) :
    r0_5.emb (ix3 z p q) = (ix3 (1 : Fin 2) p q : S2x2000x256.Idx) := by
  funext a; apply Fin.ext
  match a with
  | ⟨0, _⟩ => show 1 + 1 * z.val = 1; omega
  | ⟨1, _⟩ => show 0 + 1 * p.val = p.val; omega
  | ⟨2, _⟩ => show 0 + 1 * q.val = q.val; omega

/-- What the body leaves in the output block is the layer of the loaded blocks, entry by entry. -/
theorem out_eq (x0 x1 x2 : FVec Ideal S2000x256 .f32) (x3 x4 x5 : FVec Ideal S256x256 .bf16)
    (x6 x7 x8 : FVec Ideal S2000x1 .f32) (x9 x10 x11 x12 x13 x14 : FVec Ideal S1x256 .f32) :
    out0_15 (F := Ideal) x0 x1 x2 x3 x4 x5 x6 x7 x8 x9 x10 x11 x12 x13 x14
      = blockOut x0 x1 x2 x3 x4 x5 x6 x7 x8 x9 x10 x11 x12 x13 x14 := by
  funext y
  unfold out0_15
  simp only [View.ld_unit_zero (S := S256x256) hz2, View.ld_unit_zero (S := S2000x256) hz2,
    View.ld_unit_zero (S := S2000x1) hz2, View.ld_unit_zero (S := S1x256) hz2]
  rw [pay1_eq, pay3_eq, pay6_eq]
  refine View.canon_apply_of_pieces (Val := Elt Ideal) (e := .f32) (blockOut x0 x1 x2 x3 x4 x5 x6 x7 x8 x9 x10 x11 x12 x13 x14) _ ?_ y
    (cover0_15 _ _ y)
  intro pc hpc x
  simp only [List.mem_cons, List.not_mem_nil, or_false] at hpc
  rcases hpc with rfl | rfl
  · obtain ⟨z, p, q, rfl⟩ : ∃ (z : Fin 1) (p : Fin 2000) (q : Fin 256), x = ix3 z p q := ⟨x 0, x 1, x 2, eq_ix3 x⟩
    show norm (addf (prod x3 x0 x6) (prod x5 x2 x8)) x12 x13 x14 (ix3 z p q) = blockOut _ _ _ _ _ _ _ _ _ _ _ _ _ _ _ (r0_5.emb (ix3 z p q))
    rw [emb_slab1, norm_apply]
    show _ = layer (m := 2000) _ _ _ _ _ _ _ _ _ _ _ _ _ _ _ (1 : Fin 2) p q
    unfold layer
    rw [if_neg (by decide)]
    refine congrArg (fun y => normRelu y (row1 x12) (row1 x13) (row1 x14) q) (funext fun k => ?_)
    show prod x3 x0 x6 (ix2 p k) + prod x5 x2 x8 (ix2 p k) = _
    rw [prod_apply, prod_apply]
  · obtain ⟨z, p, q, rfl⟩ : ∃ (z : Fin 1) (p : Fin 2000) (q : Fin 256), x = ix3 z p q := ⟨x 0, x 1, x 2, eq_ix3 x⟩
    show norm (prod x4 x1 x7) x9 x10 x11 (ix3 z p q) = blockOut _ _ _ _ _ _ _ _ _ _ _ _ _ _ _ (r0_4.emb (ix3 z p q))
    rw [emb_slab0, norm_apply]
    show _ = layer (m := 2000) _ _ _ _ _ _ _ _ _ _ _ _ _ _ _ (0 : Fin 2) p q
    unfold layer
    rw [if_pos (show ((0 : Fin 2) : ℕ) = 0 from rfl)]
    refine congrArg (fun y => normRelu y (row1 x9) (row1 x10) (row1 x11) q) (funext fun k => ?_)
    rw [prod_apply]

end Cert.KernelIdeal.Block

end
-- ==== Proof.BlockReads.lean ====
/-
  How the grid's blocks sit in their arrays.

  The grid has 25 points. At point t the three feature windows and the three scale-column windows are at block (t, 0):
  row p of the block is row 2000·t + p of the array. The weight windows and the one-row windows are at block (0, 0) and
  their block is the whole array. The output window is at block (0, t, 0): both slabs, rows 2000·t … 2000·t + 1999.
  These are facts about the printed index maps (decided over the 25 points) and about reading an array through a
  rectangle; they are stated for every float instance, the arrays being whatever the region finds. Every index of the
  output lies in the block of point r / 2000, r its row (`cover`).
-/
import proofs.«121337_j10325101379594_2_alg».proof.Proof.Gen.KernelIdeal.Frame
import proofs.«121337_j10325101379594_2_alg».proof.Proof.LayerSpec

set_option maxRecDepth 16384

noncomputable section

namespace Cert.KernelIdeal.Reads

open Cert.KernelIdeal Cert.KernelIdeal.Gen
open Idealize.ShloMosaic Idealize.ShloMosaic.TcCoe Idealize.SL.Sem Idealize.ShloMosaic.ValueIdx Cert.Layer

variable {F : FTy → Type} [FloatOps F] (m : (ℓ : Loc nD τ sig) → Buf (Elt F) ℓ)

/-- The printed index maps over the 25 points: the per-row windows are at block (t, 0), the whole-array windows at
    (0, 0), the output at (0, t, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0)
    ∧ (win0_14.index t (0 : Fin 2) = 0 ∧ win0_14.index t (1 : Fin 2) = 0)
    ∧ (win0_15.index t (0 : Fin 3) = 0 ∧ win0_15.index t (1 : Fin 3) = t.val ∧ win0_15.index t (2 : Fin 3) = 0) :=
  (by decide +kernel : ∀ t : Fin grid0.N, _)

/-! ## A block read off its array -/

/-- Row p of point t's block of window 0 is row 2000·t + p of its array. -/
theorem read0 (c : Dev nD) (t : Fin cfg0.N) (p : Fin 2000) (r : Fin 50000) (hr : r.val = t.val * 2000 + p.val) :
    rows (m := 2000) (n := 256) (iblk m c 0 t) p = rows (m := 50000) (n := 256) (V m c main_v22) r := by
  have e := (idx_facts t).1
  funext k
  show V m c main_v22 (((cfg0.win 0).blk t).view.emb (ix2 p k)) = V m c main_v22 (ix2 r k)
  refine congrArg (V m c main_v22) (funext fun a => Fin.ext ?_)
  match a with
  | ⟨0, _⟩ => show win0_0.index t (0 : Fin 2) * 2000 + 1 * p.val = r.val; have := e.1; omega
  | ⟨1, _⟩ => show win0_0.index t (1 : Fin 2) * 256 + 1 * k.val = k.val; have := e.2; omega

/-- Row p of point t's block of window 1 is row 2000·t + p of its array. -/
theorem read1 (c : Dev nD) (t : Fin cfg0.N) (p : Fin 2000) (r : Fin 50000) (hr : r.val = t.val * 2000 + p.val) :
    rows (m := 2000) (n := 256) (iblk m c 1 t) p = rows (m := 50000) (n := 256) (V m c main_v47) r := by
  have e := (idx_facts t).2.1
  funext k
  show V m c main_v47 (((cfg0.win 1).blk t).view.emb (ix2 p k)) = V m c main_v47 (ix2 r k)
  refine congrArg (V m c main_v47) (funext fun a => Fin.ext ?_)
  match a with
  | ⟨0, _⟩ => show win0_1.index t (0 : Fin 2) * 2000 + 1 * p.val = r.val; have := e.1; omega
  | ⟨1, _⟩ => show win0_1.index t (1 : Fin 2) * 256 + 1 * k.val = k.val; have := e.2; omega

/-- Row p of point t's block of window 2 is row 2000·t + p of its array. -/
theorem read2 (c : Dev nD) (t : Fin cfg0.N) (p : Fin 2000) (r : Fin 50000) (hr : r.val = t.val * 2000 + p.val) :
    rows (m := 2000) (n := 256) (iblk m c 2 t) p = rows (m := 50000) (n := 256) (V m c main_v72) r := by
  have e := (idx_facts t).2.2.1
  funext k
  show V m c main_v72 (((cfg0.win 2).blk t).view.emb (ix2 p k)) = V m c main_v72 (ix2 r k)
  refine congrArg (V m c main_v72) (funext fun a => Fin.ext ?_)
  match a with
  | ⟨0, _⟩ => show win0_2.index t (0 : Fin 2) * 2000 + 1 * p.val = r.val; have := e.1; omega
  | ⟨1, _⟩ => show win0_2.index t (1 : Fin 2) * 256 + 1 * k.val = k.val; have := e.2; omega

/-- Row p of point t's block of window 6 is row 2000·t + p of its array. -/
theorem read6 (c : Dev nD) (t : Fin cfg0.N) (p : Fin 2000) (r : Fin 50000) (hr : r.val = t.val * 2000 + p.val) :
    col (m := 2000) (iblk m c 6 t) p = col (m := 50000) (V m c main_v24) r := by
  have e := (idx_facts t).2.2.2.2.2.2.1
  show V m c main_v24 (((cfg0.win 6).blk t).view.emb (ix2 p (0 : Fin 1))) = V m c main_v24 (ix2 r (0 : Fin 1))
  refine congrArg (V m c main_v24) (funext fun a => Fin.ext ?_)
  match a with
  | ⟨0, _⟩ => show win0_6.index t (0 : Fin 2) * 2000 + 1 * p.val = r.val; have := e.1; omega
  | ⟨1, _⟩ => show win0_6.index t (1 : Fin 2) * 1 + 1 * 0 = 0; have := e.2; omega

/-- Row p of point t's block of window 7 is row 2000·t + p of its array. -/
theorem read7 (c : Dev nD) (t : Fin cfg0.N) (p : Fin 2000) (r : Fin 50000) (hr : r.val = t.val * 2000 + p.val) :
    col (m := 2000) (iblk m c 7 t) p = col (m := 50000) (V m c main_v49) r := by
  have e := (idx_facts t).2.2.2.2.2.2.2.1
  show V m c main_v49 (((cfg0.win 7).blk t).view.emb (ix2 p (0 : Fin 1))) = V m c main_v49 (ix2 r (0 : Fin 1))
  refine congrArg (V m c main_v49) (funext fun a => Fin.ext ?_)
  match a with
  | ⟨0, _⟩ => show win0_7.index t (0 : Fin 2) * 2000 + 1 * p.val = r.val; have := e.1; omega
  | ⟨1, _⟩ => show win0_7.index t (1 : Fin 2) * 1 + 1 * 0 = 0; have := e.2; omega

/-- Row p of point t's block of window 8 is row 2000·t + p of its array. -/
theorem read8 (c : Dev nD) (t : Fin cfg0.N) (p : Fin 2000) (r : Fin 50000) (hr : r.val = t.val * 2000 + p.val) :
    col (m := 2000) (iblk m c 8 t) p = col (m := 50000) (V m c main_v74) r := by
  have e := (idx_facts t).2.2.2.2.2.2.2.2.1
  show V m c main_v74 (((cfg0.win 8).blk t).view.emb (ix2 p (0 : Fin 1))) = V m c main_v74 (ix2 r (0 : Fin 1))
  refine congrArg (V m c main_v74) (funext fun a => Fin.ext ?_)
  match a with
  | ⟨0, _⟩ => show win0_8.index t (0 : Fin 2) * 2000 + 1 * p.val = r.val; have := e.1; omega
  | ⟨1, _⟩ => show win0_8.index t (1 : Fin 2) * 1 + 1 * 0 = 0; have := e.2; omega

/-- Point t's block of window 3 is its whole array. -/
theorem read3 (c : Dev nD) (t : Fin cfg0.N) :
    rows (m := 256) (n := 256) (iblk m c 3 t) = rows (m := 256) (n := 256) (V m c main_v75) := by
  have e := (idx_facts t).2.2.2.1
  refine congrArg (rows (m := 256) (n := 256)) (funext fun j => ?_)
  show V m c main_v75 (((cfg0.win 3).blk t).view.emb j) = V m c main_v75 j
  refine congrArg (V m c main_v75) (funext fun a => Fin.ext ?_)
  match a with
  | ⟨0, _⟩ => show win0_3.index t (0 : Fin 2) * 256 + 1 * (j 0).val = (j 0).val; have := e.1; omega
  | ⟨1, _⟩ => show win0_3.index t (1 : Fin 2) * 256 + 1 * (j 1).val = (j 1).val; have := e.2; omega

/-- Point t's block of window 4 is its whole array. -/
theorem read4 (c : Dev nD) (t : Fin cfg0.N) :
    rows (m := 256) (n := 256) (iblk m c 4 t) = rows (m := 256) (n := 256) (V m c main_v76) := by
  have e := (idx_facts t).2.2.2.2.1
  refine congrArg (rows (m := 256) (n := 256)) (funext fun j => ?_)
  show V m c main_v76 (((cfg0.win 4).blk t).view.emb j) = V m c main_v76 j
  refine congrArg (V m c main_v76) (funext fun a => Fin.ext ?_)
  match a with
  | ⟨0, _⟩ => show win0_4.index t (0 : Fin 2) * 256 + 1 * (j 0).val = (j 0).val; have := e.1; omega
  | ⟨1, _⟩ => show win0_4.index t (1 : Fin 2) * 256 + 1 * (j 1).val = (j 1).val; have := e.2; omega

/-- Point t's block of window 5 is its whole array. -/
theorem read5 (c : Dev nD) (t : Fin cfg0.N) :
    rows (m := 256) (n := 256) (iblk m c 5 t) = rows (m := 256) (n := 256) (V m c main_v77) := by
  have e := (idx_facts t).2.2.2.2.2.1
  refine congrArg (rows (m := 256) (n := 256)) (funext fun j => ?_)
  show V m c main_v77 (((cfg0.win 5).blk t).view.emb j) = V m c main_v77 j
  refine congrArg (V m c main_v77) (funext fun a => Fin.ext ?_)
  match a with
  | ⟨0, _⟩ => show win0_5.index t (0 : Fin 2) * 256 + 1 * (j 0).val = (j 0).val; have := e.1; omega
  | ⟨1, _⟩ => show win0_5.index t (1 : Fin 2) * 256 + 1 * (j 1).val = (j 1).val; have := e.2; omega

/-- Point t's block of window 9 is its whole array. -/
theorem read9 (c : Dev nD) (t : Fin cfg0.N) :
    row1 (n := 256) (iblk m c 9 t) = row1 (n := 256) (V m c main_v78) := by
  have e := (idx_facts t).2.2.2.2.2.2.2.2.2.1
  refine congrArg (row1 (n := 256)) (funext fun j => ?_)
  show V m c main_v78 (((cfg0.win 9).blk t).view.emb j) = V m c main_v78 j
  refine congrArg (V m c main_v78) (funext fun a => Fin.ext ?_)
  match a with
  | ⟨0, _⟩ => show win0_9.index t (0 : Fin 2) * 1 + 1 * (j 0).val = (j 0).val; have := e.1; omega
  | ⟨1, _⟩ => show win0_9.index t (1 : Fin 2) * 256 + 1 * (j 1).val = (j 1).val; have := e.2; omega

/-- Point t's block of window 10 is its whole array. -/
theorem read10 (c : Dev nD) (t : Fin cfg0.N) :
    row1 (n := 256) (iblk m c 10 t) = row1 (n := 256) (V m c main_v79) := by
  have e := (idx_facts t).2.2.2.2.2.2.2.2.2.2.1
  refine congrArg (row1 (n := 256)) (funext fun j => ?_)
  show V m c main_v79 (((cfg0.win 10).blk t).view.emb j) = V m c main_v79 j
  refine congrArg (V m c main_v79) (funext fun a => Fin.ext ?_)
  match a with
  | ⟨0, _⟩ => show win0_10.index t (0 : Fin 2) * 1 + 1 * (j 0).val = (j 0).val; have := e.1; omega
  | ⟨1, _⟩ => show win0_10.index t (1 : Fin 2) * 256 + 1 * (j 1).val = (j 1).val; have := e.2; omega

/-- Point t's block of window 11 is its whole array. -/
theorem read11 (c : Dev nD) (t : Fin cfg0.N) :
    row1 (n := 256) (iblk m c 11 t) = row1 (n := 256) (V m c main_v80) := by
  have e := (idx_facts t).2.2.2.2.2.2.2.2.2.2.2.1
  refine congrArg (row1 (n := 256)) (funext fun j => ?_)
  show V m c main_v80 (((cfg0.win 11).blk t).view.emb j) = V m c main_v80 j
  refine congrArg (V m c main_v80) (funext fun a => Fin.ext ?_)
  match a with
  | ⟨0, _⟩ => show win0_11.index t (0 : Fin 2) * 1 + 1 * (j 0).val = (j 0).val; have := e.1; omega
  | ⟨1, _⟩ => show win0_11.index t (1 : Fin 2) * 256 + 1 * (j 1).val = (j 1).val; have := e.2; omega

/-- Point t's block of window 12 is its whole array. -/
theorem read12 (c : Dev nD) (t : Fin cfg0.N) :
    row1 (n := 256) (iblk m c 12 t) = row1 (n := 256) (V m c main_v81) := by
  have e := (idx_facts t).2.2.2.2.2.2.2.2.2.2.2.2.1
  refine congrArg (row1 (n := 256)) (funext fun j => ?_)
  show V m c main_v81 (((cfg0.win 12).blk t).view.emb j) = V m c main_v81 j
  refine congrArg (V m c main_v81) (funext fun a => Fin.ext ?_)
  match a with
  | ⟨0, _⟩ => show win0_12.index t (0 : Fin 2) * 1 + 1 * (j 0).val = (j 0).val; have := e.1; omega
  | ⟨1, _⟩ => show win0_12.index t (1 : Fin 2) * 256 + 1 * (j 1).val = (j 1).val; have := e.2; omega

/-- Point t's block of window 13 is its whole array. -/
theorem read13 (c : Dev nD) (t : Fin cfg0.N) :
    row1 (n := 256) (iblk m c 13 t) = row1 (n := 256) (V m c main_v82) := by
  have e := (idx_facts t).2.2.2.2.2.2.2.2.2.2.2.2.2.1
  refine congrArg (row1 (n := 256)) (funext fun j => ?_)
  show V m c main_v82 (((cfg0.win 13).blk t).view.emb j) = V m c main_v82 j
  refine congrArg (V m c main_v82) (funext fun a => Fin.ext ?_)
  match a with
  | ⟨0, _⟩ => show win0_13.index t (0 : Fin 2) * 1 + 1 * (j 0).val = (j 0).val; have := e.1; omega
  | ⟨1, _⟩ => show win0_13.index t (1 : Fin 2) * 256 + 1 * (j 1).val = (j 1).val; have := e.2; omega

/-- Point t's block of window 14 is its whole array. -/
theorem read14 (c : Dev nD) (t : Fin cfg0.N) :
    row1 (n := 256) (iblk m c 14 t) = row1 (n := 256) (V m c main_v83) := by
  have e := (idx_facts t).2.2.2.2.2.2.2.2.2.2.2.2.2.2.1
  refine congrArg (row1 (n := 256)) (funext fun j => ?_)
  show V m c main_v83 (((cfg0.win 14).blk t).view.emb j) = V m c main_v83 j
  refine congrArg (V m c main_v83) (funext fun a => Fin.ext ?_)
  match a with
  | ⟨0, _⟩ => show win0_14.index t (0 : Fin 2) * 1 + 1 * (j 0).val = (j 0).val; have := e.1; omega
  | ⟨1, _⟩ => show win0_14.index t (1 : Fin 2) * 256 + 1 * (j 1).val = (j 1).val; have := e.2; omega

/-! ## The output's blocks cover it -/

/-- An index of the output array is in point t's block iff each coordinate is in the block's range on its axis. -/
theorem mem_blk (t : Fin cfg0.N) (i : S2x50000x256.Idx) :
    i ∈ ((cfg0.win 15).blk t).view.set ↔ ∀ a : Fin 3, win0_15.index t a * S2x2000x256.size a ≤ (i a).val
      ∧ (i a).val < win0_15.index t a * S2x2000x256.size a + S2x2000x256.size a := by
  show i ∈ ((View.whole main_v84).slice (win0_15.rect t)).set ↔ _
  rw [View.set_slice_whole, Rect.mem_set_unit]
  exact Iff.rfl

/-- Every index of the output is in some point's block: row r is in the block of point r / 2000. -/
theorem cover (i : S2x50000x256.Idx) :
    ∃ t : Fin cfg0.N, (cfg0.win 15).flush t = true ∧ i ∈ ((cfg0.win 15).blk t).view.set := by
  have hN : grid0.N = 25 := N_0
  have hi0 : (i 0).val < 2 := (i 0).isLt
  have hi1 : (i 1).val < 50000 := (i 1).isLt
  have hi2 : (i 2).val < 256 := (i 2).isLt
  let t : Fin cfg0.N := ⟨(i 1).val / 2000, by show (i 1).val / 2000 < grid0.N; omega⟩
  have e := (idx_facts t).2.2.2.2.2.2.2.2.2.2.2.2.2.2.2
  have ht : t.val = (i 1).val / 2000 := rfl
  refine ⟨t, flush0_15 t, ?_⟩
  rw [mem_blk]
  intro a
  match a with
  | ⟨0, _⟩ => show win0_15.index t (0 : Fin 3) * 2 ≤ (i 0).val ∧ (i 0).val < win0_15.index t (0 : Fin 3) * 2 + 2; have := e.1; omega
  | ⟨1, _⟩ => show win0_15.index t (1 : Fin 3) * 2000 ≤ (i 1).val ∧ (i 1).val < win0_15.index t (1 : Fin 3) * 2000 + 2000; have := e.2.1; omega
  | ⟨2, _⟩ => show win0_15.index t (2 : Fin 3) * 256 ≤ (i 2).val ∧ (i 2).val < win0_15.index t (2 : Fin 3) * 256 + 256; have := e.2.2; omega

end Cert.KernelIdeal.Reads

end
-- ==== Proof.KernelArray.lean ====
/-
  From the grid's blocks to the whole output array.

  The grid has 25 points; point t holds rows 2000·t … 2000·t + 1999 of each per-row operand (the three feature arrays
  and the three scale columns move with the point along axis 0), the whole of each weight matrix and of each one-row
  matrix at every point, and writes back rows 2000·t … 2000·t + 1999 of both slabs of the output (the output's block
  index is (0, t, 0)). A block's entry is the layer's output for its row computed from that row's data
  (Proof/KernelBlock.lean), and the layer's output at a row depends on that row alone (`layer_row`): so what point t writes
  back is block t of ONE array, `whole m c` — the layer, at 50000 rows, of the arrays the region finds
  (`written_eq`). The 25 blocks cover the output (row r is in the block of point r / 2000), so the output array ends
  holding `whole m c` (`final`), the arguments unchanged (`run`).
-/
import proofs.«121337_j10325101379594_2_alg».proof.Proof.Gen.KernelIdeal.Value
import proofs.«121337_j10325101379594_2_alg».proof.Proof.KernelBlock
import proofs.«121337_j10325101379594_2_alg».proof.Proof.BlockReads

set_option maxRecDepth 16384

noncomputable section

open scoped BigOperators

namespace Cert.KernelIdeal.Whole

open Cert.KernelIdeal Cert.KernelIdeal.Gen Cert.KernelIdeal.Block Cert.KernelIdeal.Reads
open Idealize.ShloMosaic Idealize.ShloMosaic.TcCoe Idealize.SL.Sem Idealize.ShloMosaic.ValueIdx Cert.Layer
open Idealize.ShloMosaic.Pipeline (Dat)

variable (m : (ℓ : Loc nD τ sig) → Buf (Elt Ideal) ℓ) (ρ : Dev nD → PrngReg)

/-- The output array as one function of the arrays the region finds: the layer at 50000 rows. -/
def whole (c : Dev nD) : S2x50000x256.Idx → EReal := fun i =>
  layer (m := 50000) (rows (V m c main_v22)) (rows (V m c main_v47)) (rows (V m c main_v72))
    (col (V m c main_v24)) (col (V m c main_v49)) (col (V m c main_v74))
    (rows (V m c main_v75)) (rows (V m c main_v76)) (rows (V m c main_v77))
    (row1 (V m c main_v78)) (row1 (V m c main_v79)) (row1 (V m c main_v80))
    (row1 (V m c main_v81)) (row1 (V m c main_v82)) (row1 (V m c main_v83)) (i 0) (i 1) (i 2)

/-! ## What a point writes back, the cover, the array -/

/-- WHAT POINT t WRITES BACK is block t of `whole m c`. -/
theorem written_eq (c : Dev nD) (t : Fin cfg0.N) :
    (dats m 0 c).flushed 15 t = ((cfg0.win 15).blk t).view.read (Elt Ideal) (whole m c) := by
  rw [Value.flushed15]
  funext j
  obtain ⟨s, p, q, rfl⟩ : ∃ (s : Fin 2) (p : Fin 2000) (q : Fin 256), j = ix3 s p q := ⟨j 0, j 1, j 2, eq_ix3 j⟩
  have hN : grid0.N = 25 := N_0
  have ht : t.val < 25 := lt_of_lt_of_eq t.isLt N_0
  have e := (idx_facts t).2.2.2.2.2.2.2.2.2.2.2.2.2.2.2
  have hemb : ((cfg0.win 15).blk t).view.emb (ix3 s p q)
      = (ix3 s (⟨t.val * 2000 + p.val, by have := p.isLt; omega⟩ : Fin 50000) q : S2x50000x256.Idx) := by
    funext a; apply Fin.ext
    match a with
    | ⟨0, _⟩ => show win0_15.index t (0 : Fin 3) * 2 + 1 * s.val = s.val; have := e.1; omega
    | ⟨1, _⟩ => show win0_15.index t (1 : Fin 3) * 2000 + 1 * p.val = t.val * 2000 + p.val; have := e.2.1; omega
    | ⟨2, _⟩ => show win0_15.index t (2 : Fin 3) * 256 + 1 * q.val = q.val; have := e.2.2; omega
  show out0_15 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t)
      (iblk m c 14 t) (ix3 s p q) = whole m c (((cfg0.win 15).blk t).view.emb (ix3 s p q))
  rw [hemb]
  refine (congrFun (out_eq (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t)
    (iblk m c 13 t) (iblk m c 14 t)) (ix3 s p q)).trans ?_
  exact layer_row _ _ _ _ _ _ _ _ _ _ _ _ _ _ _ _ _ _ _ _ _ _ _ _ _ _ _ _ _ _ s p _ q
    (read0 m c t p _ rfl) (read1 m c t p _ rfl) (read2 m c t p _ rfl)
    (read6 m c t p _ rfl) (read7 m c t p _ rfl) (read8 m c t p _ rfl)
    (read3 m c t) (read4 m c t) (read5 m c t)
    (read9 m c t) (read10 m c t) (read11 m c t) (read12 m c t) (read13 m c t) (read14 m c t)

/-- THE OUTPUT ARRAY after the run is `whole m c`. -/
theorem final (c : Dev nD) : (dats m 0 c).arrAt 15 cfg0.N = whole m c :=
  (dats m 0 c).arrAt_eq_of_cover 15 (whole m c) (fun t _ => written_eq m c t) cover

/-- The kernel's run: the output array ends at `whole m c`, the arguments unchanged. -/
theorem run : θ_run defs (onTc (τ := τ) (main (F := Ideal))) ⟨m, fun _ => 0, ρ⟩ fun r => ∀ c : Dev nD,
      r.2.mem ((c : Thread nD τ).loc main_v84) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16) :=
  (θ_run defs _ _).mono (fun r h c => ⟨(h c).1.trans (final m c), (h c).2⟩) (Value.run_blocks m ρ)

end Cert.KernelIdeal.Whole

end
-- ==== Proof.LibPlainDot.lean ====
/-
  A plain matrix product computed as a host dot_general, read at an entry, at the exact (extended-real) values.

  For an m×k matrix A and a k×n matrix B the product's (a, b) entry is the sum over the contracted coordinate c of
  A(a, c) · B(c, b), whatever the schedule key: the contraction's index set has one axis, of extent k, and is
  re-indexed by its one coordinate. The twin, for the host's product, of the same reading of a matmul into a zero
  accumulator.
-/
import Idealize.ShloMosaic.PureOps.Ideal.Laws
import Idealize.ShloMosaic.Lib.ValueIdx

noncomputable section

open scoped BigOperators

namespace Idealize.ShloMosaic.ValueIdx

open Idealize.ShloMosaic

/-- The (a, b) entry of the host's plain product of an m×k by a k×n matrix is `∑ c, A (a, c) * B (c, b)` on the
    extended reals. -/
theorem dotGeneral_plain_apply {m k n : Nat} {φ₁ φ₂ : FTy} (prec : Option ContractPrecision) (sched : HostSchedule)
    (A : FVec Ideal ⟨2, ![m, k]⟩ φ₁) (B : FVec Ideal ⟨2, ![k, n]⟩ φ₂) (a : Fin m) (b : Fin n) :
    FloatOps.dotGeneral (DotDims.plain m k n) prec sched A B (ix2 a b) = ∑ c : Fin k, A (ix2 a c) * B (ix2 c b) := by
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have er : (DotDims.plain m k n).rhsIdx (ix2 a b) ((contrEquiv1 (DotDims.plain m k n) k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [el, er]

/-- The same for the schedule key of one device's data, as a host program applies it. -/
theorem hostDotGeneral_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    Host.dotGeneral (DotDims.plain m k n) prec A B (ix2 a b) = ∑ c : Fin k, A (ix2 a c) * B (ix2 c b) :=
  dotGeneral_plain_apply prec .single A B a b

end Idealize.ShloMosaic.ValueIdx

end
-- ==== Proof.HostChain.lean ====
/-
  The host operations an array of m rows goes through, read at an entry on the extended reals: the host twins of the
  block chains of Proof/BlockChain.lean.

  Z is an [m, 256] array.
  * `hostMeanCol Z`: the rows summed from zero, the sums laid out as an [m, 1] column, divided by the constant 256
    repeated down the column. At row a it is `mean` of row a.
  * `hostVarCol Z`: the mean column repeated across the columns and subtracted, the differences squared, summed, laid out
    as a column and divided by 256. At row a it is `var` of row a.
  * `hostNorm Z γ β b`: Z less its mean column, times the column of (variance + ε)^(-1/2), times the vector γ and plus
    the vectors β and b (each laid out as a row and repeated down the rows), clamped below at the constant zero. At
    (a, q) it is `normRelu` of row a at column q.
  * `hostScaledProduct A d W`: A times the column d repeated across the columns, then the host's plain product with W.
    At (a, q) it is Σ_c (A(a, c) · d(a, 0)) · W(c, q).
  Nothing depends on m.
-/
import Idealize.ShloMosaic.PureOps.Ideal.Laws
import Idealize.ShloMosaic.Lib.ValueIdx
import Idealize.ShloMosaic.Lib.ValueLayout
import Idealize.ShloMosaic.Lib.Pipeline.Value
import proofs.«121337_j10325101379594_2_alg».proof.Proof.LibPlainDot
import proofs.«121337_j10325101379594_2_alg».proof.Proof.LibRowWise
import proofs.«121337_j10325101379594_2_alg».proof.Proof.LayerSpec

noncomputable section

open scoped BigOperators

namespace Cert.HostChain

open Idealize.ShloMosaic Idealize.ShloMosaic.ValueIdx Cert.Layer Cert.RowWise

/-- A scalar constant repeated over a whole array reads the constant's value everywhere. -/
theorem splat_apply {t : Shape} (g : (⟨0, ![]⟩ : Shape).BroadcastsInDim t ![]) (w : BitVec 32) (j : t.Idx) :
    broadcastInDim t ![] g (constant (F := Ideal) ⟨0, ![]⟩ .f32 w) j = Ideal.ofBits .f32 w :=
  broadcastInDim_apply _ g (constant (F := Ideal) ⟨0, ![]⟩ .f32 w) j ix0 (fun a => a.elim0)

section Norm

variable {m : ℕ} (h' : (⟨2, ![m, 256]⟩ : Shape).ReducesTo [1] ⟨1, ![m]⟩)
  (h : (⟨2, ![m, 256]⟩ : Shape).Reduces [1] ⟨1, ![m]⟩) (hu : 0 < (⟨0, ![]⟩ : Shape).numel)
  (g1 : (⟨1, ![m]⟩ : Shape).BroadcastsInDim ⟨2, ![m, 1]⟩ ![0])
  (g0 : (⟨0, ![]⟩ : Shape).BroadcastsInDim ⟨2, ![m, 1]⟩ ![])
  (g2 : (⟨2, ![m, 1]⟩ : Shape).BroadcastsInDim ⟨2, ![m, 256]⟩ ![0, 1])

/-- The column of the rows' means, the host way. -/
def hostMeanCol (Z : FVec Ideal ⟨2, ![m, 256]⟩ .f32) : FVec Ideal ⟨2, ![m, 1]⟩ .f32 :=
  Host.divf
    (broadcastInDim ⟨2, ![m, 1]⟩ ![0] g1 (Host.reduceAdd Z (constant (F := Ideal) ⟨0, ![]⟩ .f32 0x00000000#32) h' hu))
    (broadcastInDim ⟨2, ![m, 1]⟩ ![] g0 (constant (F := Ideal) ⟨0, ![]⟩ .f32 0x43800000#32))

include h in
theorem hostMeanCol_apply (Z : FVec Ideal ⟨2, ![m, 256]⟩ .f32) (a : Fin m) :
    hostMeanCol h' hu g1 g0 Z (ix2 a (0 : Fin 1)) = mean (fun k => Z (ix2 a k)) := by
  show Ideal.div
    (broadcastInDim ⟨2, ![m, 1]⟩ ![0] g1 (Host.reduceAdd Z (constant (F := Ideal) ⟨0, ![]⟩ .f32 0x00000000#32) h' hu)
      (ix2 a (0 : Fin 1)))
    (broadcastInDim ⟨2, ![m, 1]⟩ ![] g0 (constant (F := Ideal) ⟨0, ![]⟩ .f32 0x43800000#32) (ix2 a (0 : Fin 1))) = _
  rw [colLift_apply, hostRowSum_apply Z h' h hu a, splat_apply]
  rfl

include h in
/-- The mean column repeated across the columns reads, at (a, k), the mean of row a. -/
theorem hostMeanSpread_apply (Z : FVec Ideal ⟨2, ![m, 256]⟩ .f32) (a : Fin m) (k : Fin 256) :
    broadcastInDim ⟨2, ![m, 256]⟩ ![0, 1] g2 (hostMeanCol h' hu g1 g0 Z) (ix2 a k) = mean (fun k => Z (ix2 a k)) := by
  rw [colSpread_apply, hostMeanCol_apply h' h]

/-- The column of the rows' variances, the host way. -/
def hostVarCol (Z : FVec Ideal ⟨2, ![m, 256]⟩ .f32) : FVec Ideal ⟨2, ![m, 1]⟩ .f32 :=
  Host.divf
    (broadcastInDim ⟨2, ![m, 1]⟩ ![0] g1
      (Host.reduceAdd
        (mulf (subf Z (broadcastInDim ⟨2, ![m, 256]⟩ ![0, 1] g2 (hostMeanCol h' hu g1 g0 Z)))
          (subf Z (broadcastInDim ⟨2, ![m, 256]⟩ ![0, 1] g2 (hostMeanCol h' hu g1 g0 Z))))
        (constant (F := Ideal) ⟨0, ![]⟩ .f32 0x00000000#32) h' hu))
    (broadcastInDim ⟨2, ![m, 1]⟩ ![] g0 (constant (F := Ideal) ⟨0, ![]⟩ .f32 0x43800000#32))

include h in
theorem hostVarCol_apply (Z : FVec Ideal ⟨2, ![m, 256]⟩ .f32) (a : Fin m) :
    hostVarCol h' hu g1 g0 g2 Z (ix2 a (0 : Fin 1)) = var (fun k => Z (ix2 a k)) := by
  show Ideal.div
    (broadcastInDim ⟨2, ![m, 1]⟩ ![0] g1
      (Host.reduceAdd
        (mulf (subf Z (broadcastInDim ⟨2, ![m, 256]⟩ ![0, 1] g2 (hostMeanCol h' hu g1 g0 Z)))
          (subf Z (broadcastInDim ⟨2, ![m, 256]⟩ ![0, 1] g2 (hostMeanCol h' hu g1 g0 Z))))
        (constant (F := Ideal) ⟨0, ![]⟩ .f32 0x00000000#32) h' hu) (ix2 a (0 : Fin 1)))
    (broadcastInDim ⟨2, ![m, 1]⟩ ![] g0 (constant (F := Ideal) ⟨0, ![]⟩ .f32 0x43800000#32) (ix2 a (0 : Fin 1))) = _
  rw [colLift_apply, hostRowSum_apply _ h' h hu a, splat_apply]
  unfold var
  refine congrArg (fun s => Ideal.div s (Ideal.ofBits .f32 0x43800000#32)) (Finset.sum_congr rfl fun k _ => ?_)
  show (Z (ix2 a k) - broadcastInDim ⟨2, ![m, 256]⟩ ![0, 1] g2 (hostMeanCol h' hu g1 g0 Z) (ix2 a k))
      * (Z (ix2 a k) - broadcastInDim ⟨2, ![m, 256]⟩ ![0, 1] g2 (hostMeanCol h' hu g1 g0 Z) (ix2 a k)) = _
  rw [hostMeanSpread_apply h' h]

variable (gv : (⟨1, ![256]⟩ : Shape).BroadcastsInDim ⟨2, ![1, 256]⟩ ![1])
  (gr : (⟨2, ![1, 256]⟩ : Shape).BroadcastsInDim ⟨2, ![m, 256]⟩ ![0, 1])
  (gz : (⟨0, ![]⟩ : Shape).BroadcastsInDim ⟨2, ![m, 256]⟩ ![])

/-- The array normalised row by row, scaled and shifted by vectors, clamped at zero, the host way. -/
def hostNorm (Z : FVec Ideal ⟨2, ![m, 256]⟩ .f32) (γ β b : FVec Ideal ⟨1, ![256]⟩ .f32) : FVec Ideal ⟨2, ![m, 256]⟩ .f32 :=
  maximumf
    (addf
      (addf
        (mulf
          (mulf (subf Z (broadcastInDim ⟨2, ![m, 256]⟩ ![0, 1] g2 (hostMeanCol h' hu g1 g0 Z)))
            (broadcastInDim ⟨2, ![m, 256]⟩ ![0, 1] g2
              (Host.rsqrt (addf (hostVarCol h' hu g1 g0 g2 Z)
                (broadcastInDim ⟨2, ![m, 1]⟩ ![] g0 (constant (F := Ideal) ⟨0, ![]⟩ .f32 0x3727C5AC#32))))))
          (broadcastInDim ⟨2, ![m, 256]⟩ ![0, 1] gr (broadcastInDim ⟨2, ![1, 256]⟩ ![1] gv γ)))
        (broadcastInDim ⟨2, ![m, 256]⟩ ![0, 1] gr (broadcastInDim ⟨2, ![1, 256]⟩ ![1] gv β)))
      (broadcastInDim ⟨2, ![m, 256]⟩ ![0, 1] gr (broadcastInDim ⟨2, ![1, 256]⟩ ![1] gv b)))
    (broadcastInDim ⟨2, ![m, 256]⟩ ![] gz (constant (F := Ideal) ⟨0, ![]⟩ .f32 0x00000000#32))

include h in
theorem hostNorm_apply (Z : FVec Ideal ⟨2, ![m, 256]⟩ .f32) (γ β b : FVec Ideal ⟨1, ![256]⟩ .f32)
    (a : Fin m) (q : Fin 256) :
    hostNorm h' hu g1 g0 g2 gv gr gz Z γ β b (ix2 a q)
      = normRelu (fun k => Z (ix2 a k)) (fun k => γ (ix1 k)) (fun k => β (ix1 k)) (fun k => b (ix1 k)) q := by
  show max ((((Z (ix2 a q) - broadcastInDim ⟨2, ![m, 256]⟩ ![0, 1] g2 (hostMeanCol h' hu g1 g0 Z) (ix2 a q))
        * broadcastInDim ⟨2, ![m, 256]⟩ ![0, 1] g2
            (Host.rsqrt (addf (hostVarCol h' hu g1 g0 g2 Z)
              (broadcastInDim ⟨2, ![m, 1]⟩ ![] g0 (constant (F := Ideal) ⟨0, ![]⟩ .f32 0x3727C5AC#32)))) (ix2 a q))
        * broadcastInDim ⟨2, ![m, 256]⟩ ![0, 1] gr (broadcastInDim ⟨2, ![1, 256]⟩ ![1] gv γ) (ix2 a q)
        + broadcastInDim ⟨2, ![m, 256]⟩ ![0, 1] gr (broadcastInDim ⟨2, ![1, 256]⟩ ![1] gv β) (ix2 a q))
        + broadcastInDim ⟨2, ![m, 256]⟩ ![0, 1] gr (broadcastInDim ⟨2, ![1, 256]⟩ ![1] gv b) (ix2 a q))
      (broadcastInDim ⟨2, ![m, 256]⟩ ![] gz (constant (F := Ideal) ⟨0, ![]⟩ .f32 0x00000000#32) (ix2 a q)) = _
  rw [hostMeanSpread_apply h' h, biasRow_apply, biasRow_apply, biasRow_apply, splat_apply, colSpread_apply]
  show max ((((Z (ix2 a q) - mean (fun k => Z (ix2 a k)))
        * Ideal.rsqrt (hostVarCol h' hu g1 g0 g2 Z (ix2 a (0 : Fin 1))
            + broadcastInDim ⟨2, ![m, 1]⟩ ![] g0 (constant (F := Ideal) ⟨0, ![]⟩ .f32 0x3727C5AC#32) (ix2 a (0 : Fin 1))))
        * γ (ix1 q) + β (ix1 q)) + b (ix1 q)) (Ideal.ofBits .f32 0x00000000#32) = _
  rw [hostVarCol_apply h' h, splat_apply]
  rfl

end Norm

section Product

variable {m : ℕ} (g2 : (⟨2, ![m, 1]⟩ : Shape).BroadcastsInDim ⟨2, ![m, 256]⟩ ![0, 1])

/-- An array with its rows scaled by a column, times a 256 × 256 matrix, the host way. -/
def hostScaledProduct (D : DotDims ⟨2, ![m, 256]⟩ ⟨2, ![256, 256]⟩ ⟨2, ![m, 256]⟩)
    (A : FVec Ideal ⟨2, ![m, 256]⟩ .f32) (d : FVec Ideal ⟨2, ![m, 1]⟩ .f32) (W : FVec Ideal ⟨2, ![256, 256]⟩ .f32) :
    FVec Ideal ⟨2, ![m, 256]⟩ .f32 :=
  Host.dotGeneral D none (mulf A (broadcastInDim ⟨2, ![m, 256]⟩ ![0, 1] g2 d)) W

theorem hostScaledProduct_apply (D : DotDims ⟨2, ![m, 256]⟩ ⟨2, ![256, 256]⟩ ⟨2, ![m, 256]⟩)
    (hD : D = DotDims.plain m 256 256)
    (A : FVec Ideal ⟨2, ![m, 256]⟩ .f32) (d : FVec Ideal ⟨2, ![m, 1]⟩ .f32) (W : FVec Ideal ⟨2, ![256, 256]⟩ .f32)
    (a : Fin m) (q : Fin 256) :
    hostScaledProduct g2 D A d W (ix2 a q) = ∑ c : Fin 256, (A (ix2 a c) * d (ix2 a (0 : Fin 1))) * W (ix2 c q) := by
  subst hD
  unfold hostScaledProduct
  rw [hostDotGeneral_plain_apply]
  refine Finset.sum_congr rfl fun c _ => ?_
  show (A (ix2 a c) * broadcastInDim ⟨2, ![m, 256]⟩ ![0, 1] g2 d (ix2 a c)) * W (ix2 c q) = _
  rw [colSpread_apply]

end Product

end Cert.HostChain

end
-- ==== Proof.LibStackSlabs.lean ====
/-
  Two slabs stacked along a new leading axis.

  Two `[1, n, c]` arrays concatenated along axis 0 into a `[2, n, c]` array (what stacking two `[n, c]` arrays lowers to,
  after each has been given a leading axis of extent one) read, at `(s, r, q)`, the first array at `(0, r, q)` when
  `s = 0` and the second at `(0, r, q)` when `s = 1`: the slab is the piece, and within a piece the leading
  coordinate is the only one it can be.
-/
import Idealize.ShloMosaic.Lib.Pipeline.Value
import Idealize.ShloMosaic.Lib.ValueIdx

namespace Cert.LibStackSlabs

open Idealize.ShloMosaic Idealize.ShloMosaic.ValueIdx

variable {α : Type}

/-- Off the stacked axis a piece's index has the whole array's coordinates. -/
private theorem off_axis {n c : ℕ} (z : Fin 1) (r : Fin n) (q : Fin c) (s : Fin 2)
    (hr : (⟨3, ![1, n, c]⟩ : Shape).rank = (⟨3, ![2, n, c]⟩ : Shape).rank) :
    ∀ b : Fin (⟨3, ![1, n, c]⟩ : Shape).rank, b.cast hr ≠ (0 : Fin 3) →
      ((ix3 z r q : (⟨3, ![1, n, c]⟩ : Shape).Idx) b).val = ((ix3 s r q : (⟨3, ![2, n, c]⟩ : Shape).Idx) (b.cast hr)).val := by
  intro b hb
  match b with
  | ⟨0, _⟩ => exact absurd rfl hb
  | ⟨1, _⟩ => rfl
  | ⟨2, _⟩ => rfl

/-- Slab 0 is the first piece. -/
theorem stack2_slab_first {n c : ℕ} (X0 X1 : (⟨3, ![1, n, c]⟩ : Shape).Idx → α)
    (hc : Shape.Concatenates [(⟨3, ![1, n, c]⟩ : Shape), ⟨3, ![1, n, c]⟩] ⟨3, ![2, n, c]⟩ (0 : Fin 3))
    (s : Fin 2) (r : Fin n) (q : Fin c) (hs : s.val = 0) :
    concatenate ⟨3, ![2, n, c]⟩ (0 : Fin 3) [⟨⟨3, ![1, n, c]⟩, X0⟩, ⟨⟨3, ![1, n, c]⟩, X1⟩] hc (ix3 s r q)
      = X0 (ix3 (0 : Fin 1) r q) :=
  concatenate_apply_piece (t := ⟨3, ![2, n, c]⟩) (0 : Fin 3) [⟨⟨3, ![1, n, c]⟩, X0⟩, ⟨⟨3, ![1, n, c]⟩, X1⟩] hc (ix3 s r q)
    0 (by simp) ⟨3, ![1, n, c]⟩ X0 rfl rfl 0 (by simp) (ix3 (0 : Fin 1) r q)
    (off_axis 0 r q s rfl) (by show 0 + 0 = s.val; omega)

/-- Slab 1 is the second piece. -/
theorem stack2_slab_second {n c : ℕ} (X0 X1 : (⟨3, ![1, n, c]⟩ : Shape).Idx → α)
    (hc : Shape.Concatenates [(⟨3, ![1, n, c]⟩ : Shape), ⟨3, ![1, n, c]⟩] ⟨3, ![2, n, c]⟩ (0 : Fin 3))
    (s : Fin 2) (r : Fin n) (q : Fin c) (hs : s.val = 1) :
    concatenate ⟨3, ![2, n, c]⟩ (0 : Fin 3) [⟨⟨3, ![1, n, c]⟩, X0⟩, ⟨⟨3, ![1, n, c]⟩, X1⟩] hc (ix3 s r q)
      = X1 (ix3 (0 : Fin 1) r q) :=
  concatenate_apply_piece (t := ⟨3, ![2, n, c]⟩) (0 : Fin 3) [⟨⟨3, ![1, n, c]⟩, X0⟩, ⟨⟨3, ![1, n, c]⟩, X1⟩] hc (ix3 s r q)
    1 (by simp) ⟨3, ![1, n, c]⟩ X1 rfl rfl 1 (by simp) (ix3 (0 : Fin 1) r q)
    (off_axis 0 r q s rfl) (by show 1 + 0 = s.val; omega)

end Cert.LibStackSlabs
-- ==== Proof.RefRows.lean ====
/-
  The reference's result, read at an entry, is the layer's output there.

  The reference computes, for each relation, the [50000, 256] array of summed neighbour features and the [50000, 1]
  column of inverse square roots of in-degrees (host gathers and scatter-adds of its arguments, kept here as the named
  stages they are and never opened), scales the rows of the one by the other, multiplies by the relation's weights,
  sums the two relations of the second kind of node, normalises each kind's array row by row, and stacks the two
  arrays along a new leading axis. Its product stages are the host chain `hostScaledProduct`, its normalised stages
  the host chain `hostNorm` (Proof/HostChain.lean), and the stack reads its slab's array (Proof/LibStackSlabs.lean):
  so the result at (s, r, q) is `layer`, at 50000 rows, of those named stages and the weight and vector arguments.
-/
import proofs.«121337_j10325101379594_2_alg».proof.Proof.Gen.ReferenceIdeal.Read
import proofs.«121337_j10325101379594_2_alg».proof.Proof.HostChain
import proofs.«121337_j10325101379594_2_alg».proof.Proof.LibStackSlabs

set_option maxRecDepth 16384

noncomputable section

open scoped BigOperators

namespace Cert.ReferenceIdeal.Rows

open Cert.ReferenceIdeal Cert.ReferenceIdeal.Read Cert.ReferenceIdeal.Facts₀ Cert.ReferenceIdeal.Facts
open Idealize.ShloMosaic Idealize.ShloMosaic.ValueIdx Cert.Layer Cert.HostChain

/-- The arguments' types: a feature array, a weight matrix, a vector of 256 numbers, a list of 800000 edge ends. -/
abbrev A256 : Type := (⟨S50000x256, .f32⟩ : BufTy).Contents (Elt Ideal)
abbrev W256 : Type := (⟨S256x256, .f32⟩ : BufTy).Contents (Elt Ideal)
abbrev V256 : Type := (⟨S256, .f32⟩ : BufTy).Contents (Elt Ideal)
abbrev E800k : Type := (⟨S800000, .i32⟩ : BufTy).Contents (Elt Ideal)

/-- The reference's contraction record is the plain m × k by k × n one. -/
theorem dot_plain : dot_S50000x256_S256x256_S50000x256_1_0_0_1_n_n = DotDims.plain 50000 256 256 := rfl

/-- One relation's product on the whole array. -/
abbrev hprod (A : FVec Ideal S50000x256 .f32) (d : FVec Ideal S50000x1 .f32) (W : FVec Ideal S256x256 .f32) :
    FVec Ideal S50000x256 .f32 :=
  hostScaledProduct (m := 50000) bcast_S50000x1_S50000x256_0_1 dot_S50000x256_S256x256_S50000x256_1_0_0_1_n_n A d W

/-- An array normalised row by row, scaled, shifted, clamped. -/
abbrev hnorm (Z : FVec Ideal S50000x256 .f32) (γ β b : FVec Ideal S256 .f32) : FVec Ideal S50000x256 .f32 :=
  hostNorm (m := 50000) reducesTo_S50000x256_S50000_d1 h_S_ bcast_S50000_S50000x1_0 bcast_S_S50000x1
    bcast_S50000x1_S50000x256_0_1 bcast_S256_S1x256_1 bcast_S1x256_S50000x256_0_1 bcast_S_S50000x256 Z γ β b

/-! ## The stages are the host chains -/

theorem v27_eq (x0 : A256) (x2 : W256) (x11 x12 : E800k) :
    val_main_v27 (F := Ideal) x0 x2 x11 x12 = hprod (val_main_v22 x0 x11 x12) (val_main_v24 x12) x2 := by
  unfold val_main_v27 val_main_v26 val_main_v25 hprod hostScaledProduct
  rfl

theorem v55_eq (x1 : A256) (x4 : W256) (x15 x16 : E800k) :
    val_main_v55 (F := Ideal) x1 x4 x15 x16 = hprod (val_main_v50 x1 x15 x16) (val_main_v52 x16) x4 := by
  unfold val_main_v55 val_main_v54 val_main_v53 hprod hostScaledProduct
  rfl

theorem v84_eq (x1 : A256) (x3 : W256) (x13 x14 : E800k) :
    val_main_v84 (F := Ideal) x1 x3 x13 x14 = hprod (val_main_v79 x1 x13 x14) (val_main_v81 x14) x3 := by
  unfold val_main_v84 val_main_v83 val_main_v82 hprod hostScaledProduct
  rfl

theorem v112_eq (x1 : A256) (x3 : W256) (x5 x6 x9 : V256) (x13 x14 : E800k) :
    val_main_v112 (F := Ideal) x1 x3 x5 x6 x9 x13 x14 = hnorm (val_main_v84 x1 x3 x13 x14) x5 x6 x9 := by
  unfold val_main_v112 val_main_v111 val_main_v110 val_main_v109 val_main_v108 val_main_v107 val_main_v106 val_main_v105 val_main_v104 val_main_v103 val_main_v102 val_main_v101 val_main_v100 val_main_v99 val_main_v98 val_main_v97 val_main_v96 val_main_v95 val_main_v94 val_main_v93 val_main_v92 val_main_v91 val_main_v90 val_main_v89 val_main_v88 val_main_v87 val_main_v86 val_main_v85 val_main_call6_v0 val_main_call6_cst val_main_cst_22 val_main_cst_23 val_main_cst_24 val_main_cst_25 val_main_cst_26
  unfold hnorm hostNorm hostVarCol hostMeanCol
  rfl

theorem v140_eq (x0 x1 : A256) (x2 x4 : W256) (x7 x8 x10 : V256) (x11 x12 x15 x16 : E800k) :
    val_main_v140 (F := Ideal) x0 x1 x2 x4 x7 x8 x10 x11 x12 x15 x16
      = hnorm (addf (val_main_v27 x0 x2 x11 x12) (val_main_v55 x1 x4 x15 x16)) x7 x8 x10 := by
  unfold val_main_v140 val_main_v139 val_main_v138 val_main_v137 val_main_v136 val_main_v135 val_main_v134 val_main_v133 val_main_v132 val_main_v131 val_main_v130 val_main_v129 val_main_v128 val_main_v127 val_main_v126 val_main_v125 val_main_v124 val_main_v123 val_main_v122 val_main_v121 val_main_v120 val_main_v119 val_main_v118 val_main_v117 val_main_v116 val_main_v115 val_main_v114 val_main_v113 val_main_v56 val_main_call7_v0 val_main_call7_cst val_main_cst_27 val_main_cst_28 val_main_cst_29 val_main_cst_30 val_main_cst_31
  unfold hnorm hostNorm hostVarCol hostMeanCol
  rfl

/-! ## Read at an entry -/

theorem hprod_apply (A : FVec Ideal S50000x256 .f32) (d : FVec Ideal S50000x1 .f32) (W : FVec Ideal S256x256 .f32)
    (r : Fin 50000) (q : Fin 256) : hprod A d W (ix2 r q) = scaledRow (rows A) (col d) (rows W) r q :=
  hostScaledProduct_apply _ _ dot_plain A d W r q

theorem hnorm_apply (Z : FVec Ideal S50000x256 .f32) (γ β b : FVec Ideal S256 .f32) (r : Fin 50000) (q : Fin 256) :
    hnorm Z γ β b (ix2 r q) = normRelu (fun k => Z (ix2 r k)) (vec γ) (vec β) (vec b) q :=
  hostNorm_apply reducesTo_S50000x256_S50000_d1 (by decide) h_S_ bcast_S50000_S50000x1_0 bcast_S_S50000x1
    bcast_S50000x1_S50000x256_0_1 bcast_S256_S1x256_1 bcast_S1x256_S50000x256_0_1 bcast_S_S50000x256 Z γ β b r q

end Cert.ReferenceIdeal.Rows

end
-- ==== Proof.RefResult.lean ====
/-
  The reference's result, read at an entry, is the layer's output there.

  The reference stacks its two normalised arrays along a new leading axis; at (s, r, q) the stack reads slab s's array at
  (r, q) (Proof/LibStackSlabs.lean), which is the row-wise normalisation (Proof/RefRows.lean) of that kind of node's
  products at row r — for the first kind one relation's, for the second the sum of two relations'.
-/
import proofs.«121337_j10325101379594_2_alg».proof.Proof.RefRows

set_option maxRecDepth 16384

noncomputable section

open scoped BigOperators

namespace Cert.ReferenceIdeal.Rows

open Cert.ReferenceIdeal Cert.ReferenceIdeal.Read Cert.ReferenceIdeal.Facts₀ Cert.ReferenceIdeal.Facts
open Idealize.ShloMosaic Idealize.ShloMosaic.ValueIdx Cert.Layer Cert.HostChain

/-- The reference's result at (s, r, q) is the layer's output there. -/
theorem result_at (x0 x1 : A256) (x2 x3 x4 : W256) (x5 x6 x7 x8 x9 x10 : V256) (x11 x12 x13 x14 x15 x16 : E800k)
    (s : Fin 2) (r : Fin 50000) (q : Fin 256) :
    val_main_v143 (F := Ideal) x0 x1 x2 x3 x4 x5 x6 x7 x8 x9 x10 x11 x12 x13 x14 x15 x16 (ix3 s r q)
      = layer (rows (val_main_v22 x0 x11 x12)) (rows (val_main_v79 x1 x13 x14)) (rows (val_main_v50 x1 x15 x16))
          (col (val_main_v24 x12)) (col (val_main_v81 x14)) (col (val_main_v52 x16))
          (rows x2) (rows x3) (rows x4) (vec x5) (vec x6) (vec x9) (vec x7) (vec x8) (vec x10) s r q := by
  have hidx : ∀ z : Fin 1, (idx_main_v141 (ix3 z r q : S1x50000x256.Idx)) = ix2 r q := fun z =>
    funext fun a => by match a with | ⟨0, _⟩ => rfl | ⟨1, _⟩ => rfl
  have hidx' : ∀ z : Fin 1, (idx_main_v142 (ix3 z r q : S1x50000x256.Idx)) = ix2 r q := fun z =>
    funext fun a => by match a with | ⟨0, _⟩ => rfl | ⟨1, _⟩ => rfl
  unfold val_main_v143 layer
  by_cases hs : s.val = 0
  · rw [if_pos hs, Cert.LibStackSlabs.stack2_slab_first _ _ _ s r q hs, val_main_v141_apply, hidx, v112_eq, hnorm_apply]
    refine congrArg (fun y => normRelu y (vec x5) (vec x6) (vec x9) q) (funext fun k => ?_)
    rw [v84_eq, hprod_apply]
  · have hs1 : s.val = 1 := by have := s.isLt; omega
    rw [if_neg hs, Cert.LibStackSlabs.stack2_slab_second _ _ _ s r q hs1, val_main_v142_apply, hidx', v140_eq, hnorm_apply]
    refine congrArg (fun y => normRelu y (vec x7) (vec x8) (vec x10) q) (funext fun k => ?_)
    rw [addf_apply, v27_eq, v55_eq, hprod_apply, hprod_apply]

end Cert.ReferenceIdeal.Rows

end
-- ==== Proof.HostArrays.lean ====
/-
  The per-row arrays the region finds are the reference's own stages of the same arguments.

  Before its one region the kernel's program computes, for each of the three relations, the array of summed neighbour
  features (the source rows scaled by the inverse square roots of their out-degrees, gathered along the edges and
  scatter-added at the edges' destinations) and the column of inverse square roots of in-degrees (edge counts by
  scatter-add, clamped below at one). The reference computes the same things by the same host operations of the same
  arguments, and names them as stages. Nothing here depends on what a float is — the two programs apply the same
  operations, in the same order, to the same arguments —, so it is stated for every float instance: each array the
  region finds is the reference's stage applied to the launch contents of the arguments.
-/
import proofs.«121337_j10325101379594_2_alg».proof.Proof.Gen.KernelIdeal.Frame
import proofs.«121337_j10325101379594_2_alg».proof.Proof.Gen.ReferenceIdeal.Read
import Idealize.ShloMosaic.Lib.StableHlo.Run

set_option maxRecDepth 16384

noncomputable section

namespace Cert.KernelIdeal.HostArrays

open Idealize.ShloMosaic Idealize.ShloMosaic.TcCoe Idealize.SL.Sem Idealize.ShloMosaic.StableHlo
open Cert.KernelIdeal Cert.KernelIdeal.Gen

variable {F : FTy → Type} [FloatOps F] (m : (ℓ : Loc nD τ sig) → Buf (Elt F) ℓ)

/-- Reads one buffer off the host operations before the region: the operations' composed term of the arguments. -/
local macro "read_host" : tactic =>
  `(tactic| (dsimp only [V]
             simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
             after_results_simp
             rfl))

set_option maxHeartbeats 4000000 in
/-- Relation cell → gene: the summed features. -/
theorem agg_cg (c : Dev nD) : (V m c main_v22 : (⟨S50000x256, .f32⟩ : BufTy).Contents (Elt F))
    = Cert.ReferenceIdeal.Read.val_main_v22 (F := F) (m ((c : Thread nD τ).loc main_arg0)) (m ((c : Thread nD τ).loc main_arg11)) (m ((c : Thread nD τ).loc main_arg12)) := by read_host

set_option maxHeartbeats 4000000 in
/-- Relation cell → gene: the in-degree scale column. -/
theorem deg_cg (c : Dev nD) : (V m c main_v24 : (⟨S50000x1, .f32⟩ : BufTy).Contents (Elt F))
    = Cert.ReferenceIdeal.Read.val_main_v24 (F := F) (m ((c : Thread nD τ).loc main_arg12)) := by read_host

set_option maxHeartbeats 4000000 in
/-- Relation gene → cell: the summed features. -/
theorem agg_gc (c : Dev nD) : (V m c main_v47 : (⟨S50000x256, .f32⟩ : BufTy).Contents (Elt F))
    = Cert.ReferenceIdeal.Read.val_main_v79 (F := F) (m ((c : Thread nD τ).loc main_arg1)) (m ((c : Thread nD τ).loc main_arg13)) (m ((c : Thread nD τ).loc main_arg14)) := by read_host

set_option maxHeartbeats 4000000 in
/-- Relation gene → cell: the in-degree scale column. -/
theorem deg_gc (c : Dev nD) : (V m c main_v49 : (⟨S50000x1, .f32⟩ : BufTy).Contents (Elt F))
    = Cert.ReferenceIdeal.Read.val_main_v81 (F := F) (m ((c : Thread nD τ).loc main_arg14)) := by read_host

set_option maxHeartbeats 4000000 in
/-- Relation gene → gene: the summed features. -/
theorem agg_gg (c : Dev nD) : (V m c main_v72 : (⟨S50000x256, .f32⟩ : BufTy).Contents (Elt F))
    = Cert.ReferenceIdeal.Read.val_main_v50 (F := F) (m ((c : Thread nD τ).loc main_arg1)) (m ((c : Thread nD τ).loc main_arg15)) (m ((c : Thread nD τ).loc main_arg16)) := by read_host

set_option maxHeartbeats 4000000 in
/-- Relation gene → gene: the in-degree scale column. -/
theorem deg_gg (c : Dev nD) : (V m c main_v74 : (⟨S50000x1, .f32⟩ : BufTy).Contents (Elt F))
    = Cert.ReferenceIdeal.Read.val_main_v52 (F := F) (m ((c : Thread nD τ).loc main_arg16)) := by read_host

end Cert.KernelIdeal.HostArrays

end
-- ==== Proof.HostVectors.lean ====
/-
  The whole-array operands the region finds, as functions of the arguments.

  The kernel's program narrows each 256 × 256 weight matrix to a shorter float format before the region, and lays
  each vector of 256 numbers out as a [1, 256] row. Stated for every float instance: each such array the region finds
  is that one operation applied to the launch contents of its argument.
-/
import proofs.«121337_j10325101379594_2_alg».proof.Proof.Gen.KernelIdeal.Frame
import proofs.«121337_j10325101379594_2_alg».proof.Proof.Gen.ReferenceIdeal.Read
import Idealize.ShloMosaic.Lib.StableHlo.Run

set_option maxRecDepth 16384

noncomputable section

namespace Cert.KernelIdeal.HostVectors

open Idealize.ShloMosaic Idealize.ShloMosaic.TcCoe Idealize.SL.Sem Idealize.ShloMosaic.StableHlo
open Cert.KernelIdeal Cert.KernelIdeal.Gen

variable {F : FTy → Type} [FloatOps F] (m : (ℓ : Loc nD τ sig) → Buf (Elt F) ℓ)

/-- Reads one buffer off the host operations before the region: the operations' composed term of the arguments. -/
local macro "read_host" : tactic =>
  `(tactic| (dsimp only [V]
             simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
             after_results_simp <;> rfl))

set_option maxHeartbeats 4000000 in
/-- The weights of relation cell → gene, narrowed. -/
theorem w_cg (c : Dev nD) : (V m c main_v75 : (⟨S256x256, .bf16⟩ : BufTy).Contents (Elt F))
    = truncf .bf16 (m ((c : Thread nD τ).loc main_arg2)) bitsLt_bf16_f32 := by read_host

set_option maxHeartbeats 4000000 in
/-- The weights of relation gene → cell, narrowed. -/
theorem w_gc (c : Dev nD) : (V m c main_v76 : (⟨S256x256, .bf16⟩ : BufTy).Contents (Elt F))
    = truncf .bf16 (m ((c : Thread nD τ).loc main_arg3)) bitsLt_bf16_f32 := by read_host

set_option maxHeartbeats 4000000 in
/-- The weights of relation gene → gene, narrowed. -/
theorem w_gg (c : Dev nD) : (V m c main_v77 : (⟨S256x256, .bf16⟩ : BufTy).Contents (Elt F))
    = truncf .bf16 (m ((c : Thread nD τ).loc main_arg4)) bitsLt_bf16_f32 := by read_host

set_option maxHeartbeats 4000000 in
/-- The scale vector of the first kind of node, as a row. -/
theorem gamma_cell (c : Dev nD) : (V m c main_v78 : (⟨S1x256, .f32⟩ : BufTy).Contents (Elt F))
    = shapeCast S1x256 (m ((c : Thread nD τ).loc main_arg5)) shapeCasts_S256_S1x256 := by read_host

set_option maxHeartbeats 4000000 in
/-- The shift vector of the first kind of node, as a row. -/
theorem beta_cell (c : Dev nD) : (V m c main_v79 : (⟨S1x256, .f32⟩ : BufTy).Contents (Elt F))
    = shapeCast S1x256 (m ((c : Thread nD τ).loc main_arg6)) shapeCasts_S256_S1x256 := by read_host

set_option maxHeartbeats 4000000 in
/-- The bias vector of the first kind of node, as a row. -/
theorem bias_cell (c : Dev nD) : (V m c main_v80 : (⟨S1x256, .f32⟩ : BufTy).Contents (Elt F))
    = shapeCast S1x256 (m ((c : Thread nD τ).loc main_arg9)) shapeCasts_S256_S1x256 := by read_host

set_option maxHeartbeats 4000000 in
/-- The scale vector of the second kind of node, as a row. -/
theorem gamma_gene (c : Dev nD) : (V m c main_v81 : (⟨S1x256, .f32⟩ : BufTy).Contents (Elt F))
    = shapeCast S1x256 (m ((c : Thread nD τ).loc main_arg7)) shapeCasts_S256_S1x256 := by read_host

set_option maxHeartbeats 4000000 in
/-- The shift vector of the second kind of node, as a row. -/
theorem beta_gene (c : Dev nD) : (V m c main_v82 : (⟨S1x256, .f32⟩ : BufTy).Contents (Elt F))
    = shapeCast S1x256 (m ((c : Thread nD τ).loc main_arg8)) shapeCasts_S256_S1x256 := by read_host

set_option maxHeartbeats 4000000 in
/-- The bias vector of the second kind of node, as a row. -/
theorem bias_gene (c : Dev nD) : (V m c main_v83 : (⟨S1x256, .f32⟩ : BufTy).Contents (Elt F))
    = shapeCast S1x256 (m ((c : Thread nD τ).loc main_arg10)) shapeCasts_S256_S1x256 := by read_host

end Cert.KernelIdeal.HostVectors

end
-- ==== Proof.Bridge.lean ====
/-
  The kernel's output array is the reference's result.

  The kernel's output array is the layer, at 50000 rows, of the arrays its one region finds (Proof/KernelArray.lean); the
  reference's result is the layer, at 50000 rows, of its own named stages and of the weight and vector arguments
  (Proof/RefResult.lean). The two families of operands are equal one by one: the three feature arrays and the three scale
  columns the region finds ARE the reference's stages of the same arguments (Proof/HostArrays.lean); the weights the
  region finds are the arguments narrowed to a shorter float format, which changes no exact value; the one-row matrices
  it finds are the vector arguments laid out as rows (Proof/HostVectors.lean). So the two arrays are equal, entry by
  entry, with no property of the arguments used.
-/
import proofs.«121337_j10325101379594_2_alg».proof.Proof.KernelArray
import proofs.«121337_j10325101379594_2_alg».proof.Proof.RefResult
import proofs.«121337_j10325101379594_2_alg».proof.Proof.HostArrays
import proofs.«121337_j10325101379594_2_alg».proof.Proof.HostVectors
import Idealize.ShloMosaic.Lib.ValueLayout

set_option maxRecDepth 16384

noncomputable section

namespace Cert.Bridge

open Cert.KernelIdeal Cert.KernelIdeal.Gen Cert.KernelIdeal.Whole Cert.KernelIdeal.HostArrays Cert.KernelIdeal.HostVectors
open Idealize.ShloMosaic Idealize.ShloMosaic.TcCoe Idealize.SL.Sem Idealize.ShloMosaic.ValueIdx Cert.Layer

variable (m : (ℓ : Loc nD τ sig) → Buf (Elt Ideal) ℓ)

/-- Narrowing a matrix to a shorter float format changes none of its exact entries. -/
theorem rows_narrowed (X : FVec Ideal ⟨2, ![256, 256]⟩ .f32) (h : FTy.bf16.bits < FTy.f32.bits) :
    rows (truncf .bf16 X h : FVec Ideal ⟨2, ![256, 256]⟩ .bf16) = rows X := rfl

/-- A vector laid out as a [1, 256] row has the vector's entries along the row. -/
theorem row_of_vec (v : FVec Ideal ⟨1, ![256]⟩ .f32) (h : (⟨1, ![256]⟩ : Shape).ShapeCasts ⟨2, ![1, 256]⟩) :
    row1 (shapeCast ⟨2, ![1, 256]⟩ v h) = vec v :=
  funext fun k => shapeCast_a_1a_apply v h 0 k

/-- The kernel's output array is the reference's final stage of the launch contents of the arguments. -/
theorem whole_eq (c : Dev nD) :
    whole m c = Cert.ReferenceIdeal.Read.val_main_v143 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  funext i
  obtain ⟨s, r, q, rfl⟩ : ∃ (s : Fin 2) (r : Fin 50000) (q : Fin 256), i = ix3 s r q := ⟨i 0, i 1, i 2, eq_ix3 i⟩
  rw [Cert.ReferenceIdeal.Rows.result_at]
  have h₁ := congrArg (fun X => rows (m := 50000) (n := 256) X r) (agg_cg m c)
  have h₀ := congrArg (fun X => rows (m := 50000) (n := 256) X r) (agg_gc m c)
  have h₂ := congrArg (fun X => rows (m := 50000) (n := 256) X r) (agg_gg m c)
  have e₁ := congrArg (fun X => col (m := 50000) X r) (deg_cg m c)
  have e₀ := congrArg (fun X => col (m := 50000) X r) (deg_gc m c)
  have e₂ := congrArg (fun X => col (m := 50000) X r) (deg_gg m c)
  have hw₁ := (congrArg (fun X => rows (m := 256) (n := 256) X) (w_cg m c)).trans (rows_narrowed _ _)
  have hw₀ := (congrArg (fun X => rows (m := 256) (n := 256) X) (w_gc m c)).trans (rows_narrowed _ _)
  have hw₂ := (congrArg (fun X => rows (m := 256) (n := 256) X) (w_gg m c)).trans (rows_narrowed _ _)
  have hγ₀ := (congrArg (fun X => row1 (n := 256) X) (gamma_cell m c)).trans (row_of_vec _ _)
  have hβ₀ := (congrArg (fun X => row1 (n := 256) X) (beta_cell m c)).trans (row_of_vec _ _)
  have hb₀ := (congrArg (fun X => row1 (n := 256) X) (bias_cell m c)).trans (row_of_vec _ _)
  have hγ₁ := (congrArg (fun X => row1 (n := 256) X) (gamma_gene m c)).trans (row_of_vec _ _)
  have hβ₁ := (congrArg (fun X => row1 (n := 256) X) (beta_gene m c)).trans (row_of_vec _ _)
  have hb₁ := (congrArg (fun X => row1 (n := 256) X) (bias_gene m c)).trans (row_of_vec _ _)
  unfold whole
  exact layer_row _ _ _ _ _ _ _ _ _ _ _ _ _ _ _ _ _ _ _ _ _ _ _ _ _ _ _ _ _ _ s r r q
    h₁ h₀ h₂ e₁ e₀ e₂ hw₁ hw₀ hw₂ hγ₀ hβ₀ hb₀ hγ₁ hβ₁ hb₁

end Cert.Bridge

end
-- ==== Proof.lean ====
/-
  A fused layer of a graph network over two kinds of node (cells and genes), against its plain reference.

  Both programs take node features x_cell, x_gene ([50000, 256]), three weight matrices ([256, 256]), per-kind scale,
  shift and bias vectors (256 numbers each) and three relations given as lists of 800000 edge ends. For each relation
  both compute, by the same host operations, the array A of neighbour sums — source rows scaled by the inverse square
  root of their out-degree, gathered along the edges, scatter-added at the destinations — and the column d of inverse
  square roots of in-degrees (edge counts clamped below at one). From there the result is, for each kind of node and each
  row r,
      y_q = Σ_c (A(r, c) · d(r)) · W(c, q)        (for genes, the sum of two relations' such rows),
      out(r, q) = max (((y_q - mean y) · (var y + ε)^(-1/2)) · γ_q + β_q + b_q, 0),
  with mean y = (Σ y)/256, var y = (Σ (y - mean y)²)/256, and the two kinds stacked along a leading axis of extent 2
  (`Cert.Layer.layer`, Proof/LayerSpec.lean).

  The reference does all of it on the host, on whole arrays. The kernel's program does the neighbour sums and the degree
  columns on the host and the rest in one grid of 25 points, each taking 2000 consecutive rows of A and d (the weights
  narrowed to a shorter float format, the identity on exact values; the vectors laid out as rows) and writing 2000 rows
  of both slabs of the output. Every output row depends on its own row of A and d alone, so the 25 blocks are the blocks
  of one array, which is the reference's result: on the extended reals both are the same function of the arguments,
  operation for operation — no law of arithmetic is needed to join them, and no property of the inputs is used.

  The route: a block is the layer at 2000 rows (Proof/KernelBlock.lean, over the vector chains of Proof/BlockChain.lean);
  the blocks tile the array, which is therefore the layer at 50000 rows of the arrays the region finds
  (Proof/BlockReads.lean, Proof/KernelArray.lean); the reference's result is the layer at 50000 rows of its own stages
  (Proof/RefRows.lean, Proof/RefResult.lean, over the host chains of Proof/HostChain.lean); the arrays the region finds
  are those stages and the arguments (Proof/HostArrays.lean, Proof/HostVectors.lean); hence equal (Proof/Bridge.lean).
  The three frames are the generated ones, the reference's being its generated run with the result dropped; the
  idealisation recorded no rewrite, so there is nothing to preserve.
-/
import proofs.«121337_j10325101379594_2_alg».proof.Defs
import proofs.«121337_j10325101379594_2_alg».proof.Proof.Gen.Kernel
import proofs.«121337_j10325101379594_2_alg».proof.Proof.Gen.Kernel.Skeleton
import proofs.«121337_j10325101379594_2_alg».proof.Proof.Gen.Kernel.Launch
import proofs.«121337_j10325101379594_2_alg».proof.Proof.Gen.Kernel.Points
import proofs.«121337_j10325101379594_2_alg».proof.Proof.Gen.Kernel.Frame
import proofs.«121337_j10325101379594_2_alg».proof.Proof.Gen.KernelIdeal
import proofs.«121337_j10325101379594_2_alg».proof.Proof.Gen.KernelIdeal.Skeleton
import proofs.«121337_j10325101379594_2_alg».proof.Proof.Gen.KernelIdeal.Launch
import proofs.«121337_j10325101379594_2_alg».proof.Proof.Gen.KernelIdeal.Points
import proofs.«121337_j10325101379594_2_alg».proof.Proof.Gen.KernelIdeal.Frame
import proofs.«121337_j10325101379594_2_alg».proof.Proof.Gen.ReferenceIdeal
import proofs.«121337_j10325101379594_2_alg».proof.Proof.Gen.Pre_finite_inputs
import proofs.«121337_j10325101379594_2_alg».proof.Proof.Gen.KernelIdeal.Value
import proofs.«121337_j10325101379594_2_alg».proof.Proof.Gen.ReferenceIdeal.Run
import proofs.«121337_j10325101379594_2_alg».proof.Proof.Gen.ReferenceIdeal.Read
import proofs.«121337_j10325101379594_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel's frame: the generated one. -/
theorem frame_kernel : Cert.frame_Kernel := fun m ρ _ => Cert.Kernel.Gen.frame m ρ

/-- The idealised kernel's frame: the generated one. -/
theorem frame_kernelIdeal : Cert.frame_KernelIdeal := fun m ρ _ => Cert.KernelIdeal.Gen.frame m ρ

/-- The reference's frame: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealisation rewrote nothing. -/
theorem preserves : Cert.preserves_Kernel_KernelIdeal := trivial

/-- Run from memories that agree on the arguments, both programs end with the layer's output in their result arrays: the
    kernel's is `whole m c` (its 25 blocks assembled), the reference's its final stage of its own arguments, which are the
    kernel's; the two are one array (`Cert.Bridge.whole_eq`). -/
theorem algebraic : Cert.algebraic_KernelIdeal_ReferenceIdeal := by
  intro m ρ m' ρ' _ hagree
  refine ⟨fun c => Cert.KernelIdeal.Whole.whole m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13, a14, a15, a16⟩ := hagree c
  rw [Cert.ReferenceIdeal.Read.val_main_v143_eq, a0, a1, a2, a3, a4, a5, a6, a7, a8, a9, a10, a11, a12, a13, a14, a15, a16]
  exact (Cert.Bridge.whole_eq m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
